-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S128x64 : Shape := ⟨2, ![128, 64]⟩
abbrev S3x128x64 : Shape := ⟨3, ![3, 128, 64]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S3x128x64 : S_.BroadcastsInDim S3x128x64 (![] : Fin 0 → Fin S3x128x64.rank)
  reducesTo_S3x128x64_S_d0_1_2 : S3x128x64.ReducesTo [0, 1, 2] S_

variable [Facts]

def fn {F : FTy → Type} [FloatOps F] (main_arg0 : FVec F S8x4096x128 .f32) (main_arg1 : FVec F S128x64 .f32) (main_arg2 : FVec F S3x128x64 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S3x128x64 .f32 := Host.absf main_arg2
  let main_cst_2 : FVec F S_ .f32 := constant S_ .f32 0x7F800000#32
  let main_v10 : FVec F S3x128x64 .f32 := broadcastInDim S3x128x64 ![] bcast_S_S3x128x64 main_cst_2
  let main_v11 : IVec S3x128x64 1 := cmpf .olt main_v9 main_v10
  let main_c_3 : IVec S_ 1 := constantI S_ 1 1#1
  let main_v12 : IVec S_ 1 := (fun x v => Host.reduce IntOp.andi x v reducesTo_S3x128x64_S_d0_1_2 h_S_) main_v11 main_c_3
  let main_v13 : IVec S_ 1 := andi main_v8 main_v12
  main_v13
-- ==== Kernel.lean ====
abbrev S8x4096x128 : Shape := ⟨3, ![8, 4096, 128]⟩
abbrev S128x64 : Shape := ⟨2, ![128, 64]⟩
abbrev S3x128x64 : Shape := ⟨3, ![3, 128, 64]⟩
abbrev S1x4096x128 : Shape := ⟨3, ![1, 4096, 128]⟩
abbrev S4096x128 : Shape := ⟨2, ![4096, 128]⟩
abbrev S128x4096 : Shape := ⟨2, ![128, 4096]⟩
abbrev S1x128 : Shape := ⟨2, ![1, 128]⟩
abbrev S4095x128 : Shape := ⟨2, ![4095, 128]⟩
abbrev S1x128x64 : Shape := ⟨3, ![1, 128, 64]⟩
abbrev S4096x64 : Shape := ⟨2, ![4096, 64]⟩
abbrev S512x128 : Shape := ⟨2, ![512, 128]⟩
abbrev S512x4096 : Shape := ⟨2, ![512, 4096]⟩
abbrev S512 : Shape := ⟨1, ![512]⟩
abbrev S512x1 : Shape := ⟨2, ![512, 1]⟩
abbrev S1x512x128 : Shape := ⟨3, ![1, 512, 128]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x128, .f32⟩
  | .hbm, ⟨1, _⟩ => ⟨S128x64, .f32⟩
  | .hbm, ⟨2, _⟩ => ⟨S3x128x64, .f32⟩
  | .hbm, ⟨3, _⟩ => ⟨S8x4096x128, .f32⟩
  | .local _ .vmem, ⟨0, _⟩ => ⟨S1x4096x128, .f32⟩
  | .local _ .vmem, ⟨1, _⟩ => ⟨S1x4096x128, .f32⟩
  | .local _ .vmem, ⟨2, _⟩ => ⟨S128x64, .f32⟩
  | .local _ .vmem, ⟨3, _⟩ => ⟨S3x128x64, .f32⟩
  | .local _ .vmem, ⟨4, _⟩ => ⟨S1x4096x128, .f32⟩
  | .local _ .vmem, ⟨5, _⟩ => ⟨S1x4096x128, .f32⟩
  | .local _ .vmem, ⟨6, _⟩ => ⟨S4096x128, .bf16⟩
  | .local _ .vmem, ⟨7, _⟩ => ⟨S128x4096, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  packedbf16_S4096x128_S4096x128_0_0 : (Rect.unit (s := S4096x128) ![0, 0] S4096x128.size inb_S4096x128_S4096x128_0_0).PackedRows (EltTy.packing .bf16)
  inb_S3x128x64_S3x128x64_0_0_0 : ∀ a, (![0, 0, 0] : Fin 3 → Nat) a + S3x128x64.size a ≤ S3x128x64.size a
  h_S3x128x64 : 0 < S3x128x64.numel
  slices_S4096x128_o0_0_S4095x128 : S4096x128.Slices ![0, 0] S4095x128
  concatenates_S1x128_S4095x128_S4096x128_d0 : Shape.Concatenates [S1x128, S4095x128] S4096x128 0
  slices_S4096x128_o1_0_S4095x128 : S4096x128.Slices ![1, 0] S4095x128
  concatenates_S4095x128_S1x128_S4096x128_d0 : Shape.Concatenates [S4095x128, S1x128] S4096x128 0
  slices_S3x128x64_o0_0_0_S1x128x64 : S3x128x64.Slices ![0, 0, 0] S1x128x64
  shapeCasts_S1x128x64_S128x64 : S1x128x64.ShapeCasts S128x64
  slices_S3x128x64_o1_0_0_S1x128x64 : S3x128x64.Slices ![1, 0, 0] S1x128x64
  slices_S3x128x64_o2_0_0_S1x128x64 : S3x128x64.Slices ![2, 0, 0] S1x128x64
  inb_S128x64_S128x64_0_0 : ∀ a, (![0, 0] : Fin 2 → Nat) a + S128x64.size a ≤ S128x64.size a
  h_S128x64 : 0 < S128x64.numel
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  packedbf16_S128x4096_S128x4096_0_0 : (Rect.unit (s := S128x4096) ![0, 0] S128x4096.size inb_S128x4096_S128x4096_0_0).PackedRows (EltTy.packing .bf16)
  inb_S4096x128_S512x128_0_0 : ∀ a, (![0, 0] : Fin 2 → Nat) a + S512x128.size a ≤ S4096x128.size a
  h_S512x128 : 0 < S512x128.numel
  reduces_S512x4096_S512 : S512x4096.Reduces [1] S512
  shapeCasts_S512_S512x1 : S512.ShapeCasts S512x1
  broadcasts_S512x1_S512x4096 : S512x1.Broadcasts S512x4096
  inb_S1x4096x128_S1x512x128_0_0_0 : ∀ a, (![0, 0, 0] : Fin 3 → Nat) a + S1x512x128.size a ≤ S1x4096x128.size a
  h_S1x512x128 : 0 < S1x512x128.numel
  shapeCasts_S1x512x128_S512x128 : S1x512x128.ShapeCasts S512x128
  shapeCasts_S512x128_S1x512x128 : S512x128.ShapeCasts S1x512x128
  inb_S4096x128_S512x128_512_0 : ∀ a, (![512, 0] : Fin 2 → Nat) a + S512x128.size a ≤ S4096x128.size a
  inb_S1x4096x128_S1x512x128_0_512_0 : ∀ a, (![0, 512, 0] : Fin 3 → Nat) a + S1x512x128.size a ≤ S1x4096x128.size a
  inb_S4096x128_S512x128_1024_0 : ∀ a, (![1024, 0] : Fin 2 → Nat) a + S512x128.size a ≤ S4096x128.size a
  inb_S1x4096x128_S1x512x128_0_1024_0 : ∀ a, (![0, 1024, 0] : Fin 3 → Nat) a + S1x512x128.size a ≤ S1x4096x128.size a
  inb_S4096x128_S512x128_1536_0 : ∀ a, (![1536, 0] : Fin 2 → Nat) a + S512x128.size a ≤ S4096x128.size a
  inb_S1x4096x128_S1x512x128_0_1536_0 : ∀ a, (![0, 1536, 0] : Fin 3 → Nat) a + S1x512x128.size a ≤ S1x4096x128.size a
  inb_S4096x128_S512x128_2048_0 : ∀ a, (![2048, 0] : Fin 2 → Nat) a + S512x128.size a ≤ S4096x128.size a
  inb_S1x4096x128_S1x512x128_0_2048_0 : ∀ a, (![0, 2048, 0] : Fin 3 → Nat) a + S1x512x128.size a ≤ S1x4096x128.size a
  inb_S4096x128_S512x128_2560_0 : ∀ a, (![2560, 0] : Fin 2 → Nat) a + S512x128.size a ≤ S4096x128.size a
  inb_S1x4096x128_S1x512x128_0_2560_0 : ∀ a, (![0, 2560, 0] : Fin 3 → Nat) a + S1x512x128.size a ≤ S1x4096x128.size a
  inb_S4096x128_S512x128_3072_0 : ∀ a, (![3072, 0] : Fin 2 → Nat) a + S512x128.size a ≤ S4096x128.size a
  inb_S1x4096x128_S1x512x128_0_3072_0 : ∀ a, (![0, 3072, 0] : Fin 3 → Nat) a + S1x512x128.size a ≤ S1x4096x128.size a
  inb_S4096x128_S512x128_3584_0 : ∀ a, (![3584, 0] : Fin 2 → Nat) a + S512x128.size a ≤ S4096x128.size a
  inb_S1x4096x128_S1x512x128_0_3584_0 : ∀ a, (![0, 3584, 0] : Fin 3 → Nat) a + S1x512x128.size a ≤ S1x4096x128.size a
  dot_S4096x128_S128x64_S4096x64_1_0_0_1_n_n_wf : DotDims.WF S4096x128 S128x64 S4096x64 [1] [0] [0] [1] [] []
  dot_S128x64_S4096x64_S128x4096_1_1_0_0_n_n_wf : DotDims.WF S128x64 S4096x64 S128x4096 [1] [1] [0] [0] [] []
  dot_S512x128_S128x4096_S512x4096_1_0_0_1_n_n_wf : DotDims.WF S512x128 S128x4096 S512x4096 [1] [0] [0] [1] [] []
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S8x4096x128.size a
  hwx0_0 : ∀ i : grid0.Coords, EltTy.bits .f32 = 32 ∨ (Rect.block (s := S8x4096x128) S1x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128x64.size a ≤ S3x128x64.size a
  hwx0_2 : ∀ i : grid0.Coords, EltTy.bits .f32 = 32 ∨ (Rect.block (s := S3x128x64) S3x128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x128.size a ≤ S8x4096x128.size a
  hwx0_3 : ∀ i : grid0.Coords, EltTy.bits .f32 = 32 ∨ (Rect.block (s := S8x4096x128) S1x4096x128.size (cc0_transform_3 i) (hinb0_3 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S128x64_S4096x64_S128x4096_1_1_0_0_n_n : DotDims S128x64 S4096x64 S128x4096 where
  lhsContracting := [1]
  rhsContracting := [1]
  lhsNonContracting := [0]
  rhsNonContracting := [0]
  lhsBatch := []
  rhsBatch := []
  wf := dot_S128x64_S4096x64_S128x4096_1_1_0_0_n_n_wf
def dot_S512x128_S128x4096_S512x4096_1_0_0_1_n_n : DotDims S512x128 S128x4096 S512x4096 where
  lhsContracting := [1]
  rhsContracting := [0]
  lhsNonContracting := [0]
  rhsNonContracting := [1]
  lhsBatch := []
  rhsBatch := []
  wf := dot_S512x128_S128x4096_S512x4096_1_0_0_1_n_n_wf
def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S1x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3x128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S128x64 : Shape := ⟨2, ![128, 64]⟩
abbrev S3x128x64 : Shape := ⟨3, ![3, 128, 64]⟩
abbrev S8x4096x64 : Shape := ⟨3, ![8, 4096, 64]⟩
abbrev S_ : Shape := ⟨0, ![]⟩
abbrev S8x4098x128 : Shape := ⟨3, ![8, 4098, 128]⟩
abbrev S1x128x64 : Shape := ⟨3, ![1, 128, 64]⟩
abbrev S8x4096x4096 : Shape := ⟨3, ![8, 4096, 4096]⟩
abbrev S8x4096 : Shape := ⟨2, ![8, 4096]⟩
abbrev S8x4096x1 : Shape := ⟨3, ![8, 4096, 1]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S128x64, .f32⟩
  | .hbm, ⟨2, _⟩ => ⟨S3x128x64, .f32⟩
  | .hbm, ⟨3, _⟩ => ⟨S8x4096x64, .f32⟩
  | .hbm, ⟨4, _⟩ => ⟨S_, .i32⟩
  | .hbm, ⟨5, _⟩ => ⟨S_, .f32⟩
  | .hbm, ⟨6, _⟩ => ⟨S8x4098x128, .f32⟩
  | .hbm, ⟨7, _⟩ => ⟨S8x4096x128, .f32⟩
  | .hbm, ⟨8, _⟩ => ⟨S1x128x64, .f32⟩
  | .hbm, ⟨9, _⟩ => ⟨S128x64, .f32⟩
  | .hbm, ⟨10, _⟩ => ⟨S8x4096x64, .f32⟩
  | .hbm, ⟨11, _⟩ => ⟨S8x4096x128, .f32⟩
  | .hbm, ⟨12, _⟩ => ⟨S1x128x64, .f32⟩
  | .hbm, ⟨13, _⟩ => ⟨S128x64, .f32⟩
  | .hbm, ⟨14, _⟩ => ⟨S8x4096x64, .f32⟩
  | .hbm, ⟨15, _⟩ => ⟨S8x4096x64, .f32⟩
  | .hbm, ⟨16, _⟩ => ⟨S8x4096x128, .f32⟩
  | .hbm, ⟨17, _⟩ => ⟨S1x128x64, .f32⟩
  | .hbm, ⟨18, _⟩ => ⟨S128x64, .f32⟩
  | .hbm, ⟨19, _⟩ => ⟨S8x4096x64, .f32⟩
  | .hbm, ⟨20, _⟩ => ⟨S8x4096x64, .f32⟩
  | .hbm, ⟨21, _⟩ => ⟨S8x4096x4096, .f32⟩
  | .hbm, ⟨22, _⟩ => ⟨S_, .f32⟩
  | .hbm, ⟨23, _⟩ => ⟨S_, .f32⟩
  | .hbm, ⟨24, _⟩ => ⟨S8x4096x4096, .f32⟩
  | .hbm, ⟨25, _⟩ => ⟨S8x4096x4096, .f32⟩
  | .hbm, ⟨26, _⟩ => ⟨S_, .f32⟩
  | .hbm, ⟨27, _⟩ => ⟨S8x4096, .f32⟩
  | .hbm, ⟨28, _⟩ => ⟨S_, .f32⟩
  | .hbm, ⟨29, _⟩ => ⟨S8x4096, .f32⟩
  | .hbm, ⟨30, _⟩ => ⟨S8x4096, .f32⟩
  | .hbm, ⟨31, _⟩ => ⟨S8x4096x1, .f32⟩
  | .hbm, ⟨32, _⟩ => ⟨S8x4096x4096, .f32⟩
  | .hbm, ⟨33, _⟩ => ⟨S8x4096x4096, .f32⟩
  | .hbm, ⟨34, _⟩ => ⟨S8x4096x4096, .f32⟩
  | .hbm, ⟨35, _⟩ => ⟨S_, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x128, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  pads_S8x4096x128_S8x4098x128_000_110_000 : S8x4096x128.Pads (![0, 1, 0] : Fin 3 → Nat) ![0, 1, 0] ![0, 0, 0] S8x4098x128
  h_S_ : 0 < S_.numel
  slices_S8x4098x128_S8x4096x128_0_0_0 : S8x4098x128.Slices ![0, 0, 0] S8x4096x128
  slices_S3x128x64_S1x128x64_0_0_0 : S3x128x64.Slices ![0, 0, 0] S1x128x64
  shapeCasts_S1x128x64_S128x64 : S1x128x64.ShapeCasts S128x64
  slices_S8x4098x128_S8x4096x128_0_1_0 : S8x4098x128.Slices ![0, 1, 0] S8x4096x128
  slices_S3x128x64_S1x128x64_1_0_0 : S3x128x64.Slices ![1, 0, 0] S1x128x64
  slices_S8x4098x128_S8x4096x128_0_2_0 : S8x4098x128.Slices ![0, 2, 0] S8x4096x128
  slices_S3x128x64_S1x128x64_2_0_0 : S3x128x64.Slices ![2, 0, 0] S1x128x64
  bcast_S_S8x4096x4096 : S_.BroadcastsInDim S8x4096x4096 (![] : Fin 0 → Fin S8x4096x4096.rank)
  reducesTo_S8x4096x4096_S8x4096_d2 : S8x4096x4096.ReducesTo [2] S8x4096
  bcast_S_S8x4096 : S_.BroadcastsInDim S8x4096 (![] : Fin 0 → Fin S8x4096.rank)
  bcast_S8x4096_S8x4096x1_0_1 : S8x4096.BroadcastsInDim S8x4096x1 (![0, 1] : Fin 2 → Fin S8x4096x1.rank)
  bcast_S8x4096x1_S8x4096x4096_0_1_2 : S8x4096x1.BroadcastsInDim S8x4096x4096 (![0, 1, 2] : Fin 3 → Fin S8x4096x4096.rank)
  dot_S8x4096x128_S128x64_S8x4096x64_2_0_01_1_n_n_wf : DotDims.WF S8x4096x128 S128x64 S8x4096x64 [2] [0] [0, 1] [1] [] []
  dot_S8x4096x64_S8x4096x64_S8x4096x4096_2_2_1_1_0_0_wf : DotDims.WF S8x4096x64 S8x4096x64 S8x4096x4096 [2] [2] [1] [1] [0] [0]
  dot_S8x4096x4096_S8x4096x128_S8x4096x128_2_1_1_2_0_0_wf : DotDims.WF S8x4096x4096 S8x4096x128 S8x4096x128 [2] [1] [1] [2] [0] [0]

variable [Facts₀]

def dot_S8x4096x128_S128x64_S8x4096x64_2_0_01_1_n_n : DotDims S8x4096x128 S128x64 S8x4096x64 where
  lhsContracting := [2]
  rhsContracting := [0]
  lhsNonContracting := [0, 1]
  rhsNonContracting := [1]
  lhsBatch := []
  rhsBatch := []
  wf := dot_S8x4096x128_S128x64_S8x4096x64_2_0_01_1_n_n_wf
def dot_S8x4096x64_S8x4096x64_S8x4096x4096_2_2_1_1_0_0 : DotDims S8x4096x64 S8x4096x64 S8x4096x4096 where
  lhsContracting := [2]
  rhsContracting := [2]
  lhsNonContracting := [1]
  rhsNonContracting := [1]
  lhsBatch := [0]
  rhsBatch := [0]
  wf := dot_S8x4096x64_S8x4096x64_S8x4096x4096_2_2_1_1_0_0_wf
def dot_S8x4096x4096_S8x4096x128_S8x4096x128_2_1_1_2_0_0 : DotDims S8x4096x4096 S8x4096x128 S8x4096x128 where
  lhsContracting := [2]
  rhsContracting := [1]
  lhsNonContracting := [1]
  rhsNonContracting := [2]
  lhsBatch := [0]
  rhsBatch := [0]
  wf := dot_S8x4096x4096_S8x4096x128_S8x4096x128_2_1_1_2_0_0_wf

class Facts : Prop extends Facts₀ where

variable [Facts]
-- ==== Proof.Legs.lean ====
/-
  The generated legs this certificate's hand modules build on, gathered in one place: the idealized kernel's value
  leg (each output array after the run, block by block), and the reference's run with its operations read one at a
  time at an index.
-/
import proofs.«122185_j28776280883833_2_alg».proof.Proof.Gen.KernelIdeal.Value
import proofs.«122185_j28776280883833_2_alg».proof.Proof.Gen.ReferenceIdeal.Run
import proofs.«122185_j28776280883833_2_alg».proof.Proof.Gen.ReferenceIdeal.Read
-- ==== Proof.LibReadBack.lean ====
/-
  A buffer written once, whole, and then read back through a rectangle.

  When the one store into a buffer goes through the rectangle of the buffer's whole shape at zero offsets, the buffer
  holds the stored value `w` everywhere; a later load through ANY rectangle `r` of the buffer therefore reads `w` at the
  indices `r` names, that is `w` restricted to `r`. (The library states the case where the load is through the same whole
  rectangle; a kernel that fills a scratch table once and then reads it back a band of rows at a time needs the load's
  rectangle free.)
-/
import Idealize.ShloMosaic.Lib.Pipeline.Value

noncomputable section

namespace Idealize.ShloMosaic.View

variable {Val : EltTy → Type} {S : Shape} {e : EltTy}

/-- A load, through any rectangle, of what ONE store through the whole buffer left reads the stored value through that
    rectangle: the store covers every index, so the canonical contents are the stored value. -/
theorem readCov_whole_store [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (r : Rect S) :
    v.readCov [(⟨Rect.unit off S.size inb, w⟩ : Piece Val S e)] r.toLoadRect = View.ld w r := by
  rw [readCov_eq_canon_ld _ _ _ (fun y => ⟨_, List.mem_singleton_self _, mem_set_unit_zero h inb y⟩), canon_unit_zero h]

end Idealize.ShloMosaic.View

end
-- ==== Proof.TileList.lean ====
/-
  What one run of the kernel's body leaves in the output's staging buffer, at any float instance.

  The body first fills two scratch tables, each by ONE store through the whole table: the rows of the input block
  (`k0_pay3`) and the key table seen through the query weights (`k0_pay4`). It then computes eight tiles of 512 query
  rows; tile number `k` reads back rows `512 k … 512 k + 511` of the row table as its queries and both tables whole as its
  keys and values, and stores its result through rows `512 k … 512 k + 511` of the output's buffer. The text spells the
  eight tiles as differently cut pieces of one and the same arithmetic; each is the function `k0_pay1` of its three
  read-backs. So the buffer ends at the canonical contents of eight pieces, `tilePiece` at the row offsets
  3584, 3072, …, 0, that tile it.
-/
import proofs.«122185_j28776280883833_2_alg».proof.Proof.Gen.KernelIdeal.Frame
import proofs.«122185_j28776280883833_2_alg».proof.Proof.LibReadBack
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The eight spellings of one tile -/

theorem tile_at_3072 (q : Vec F S512x128 .bf16) (a : Vec F S128x4096 .bf16) (v : Vec F S4096x128 .bf16) :
    k0_pay16 q a v = k0_pay1 q a v := rfl
theorem tile_at_2560 (q : Vec F S512x128 .bf16) (a : Vec F S128x4096 .bf16) (v : Vec F S4096x128 .bf16) :
    k0_pay15 (k0_pay13 q a) (k0_pay14 q a) v = k0_pay1 q a v := rfl
theorem tile_at_2048 (q : Vec F S512x128 .bf16) (a : Vec F S128x4096 .bf16) (v : Vec F S4096x128 .bf16) :
    k0_pay12 q a v = k0_pay1 q a v := rfl
theorem tile_at_1536 (q : Vec F S512x128 .bf16) (a : Vec F S128x4096 .bf16) (v : Vec F S4096x128 .bf16) :
    k0_pay11 (k0_pay10 q a) v = k0_pay1 q a v := rfl
theorem tile_at_1024 (q : Vec F S512x128 .bf16) (a : Vec F S128x4096 .bf16) (v : Vec F S4096x128 .bf16) :
    k0_pay9 q a v = k0_pay1 q a v := rfl
theorem tile_at_512 (q : Vec F S512x128 .bf16) (a : Vec F S128x4096 .bf16) (v : Vec F S4096x128 .bf16) :
    k0_pay8 (k0_pay7 q a v) = k0_pay1 q a v := rfl
theorem tile_at_0 (q : Vec F S512x128 .bf16) (a : Vec F S128x4096 .bf16) (v : Vec F S4096x128 .bf16) :
    k0_pay6 (k0_pay5 q a) v = k0_pay1 q a v := rfl

/-! ## The pieces -/

/-- The tile stored through rows `off … off + 511` of the output block: its queries are those rows of the row table, its keys
    the whole key table, its values the whole row table. -/
def tilePiece (x0 : Vec F S1x4096x128 .f32) (x1 : Vec F S128x64 .f32) (x2 : Vec F S3x128x64 .f32) (off : ℕ)
    (inbO : ∀ a, (![0, off, 0] : Fin 3 → Nat) a + S1x512x128.size a ≤ S1x4096x128.size a)
    (inbQ : ∀ a, (![off, 0] : Fin 2 → Nat) a + S512x128.size a ≤ S4096x128.size a) : View.Piece (Elt F) S1x4096x128 .f32 :=
  ⟨Rect.unit ![0, off, 0] ![1, 512, 128] inbO,
    k0_pay1 (View.ld (Val := Elt F) (S := S4096x128) (e' := EltTy.bf16) (k0_pay3 x0) (Rect.unit (s := S4096x128) ![off, 0] ![512, 128] inbQ))
      (k0_pay4 x0 x2 x1) (k0_pay3 x0)⟩

/-- The eight tiles, last stored first. -/
def tiles (x0 : Vec F S1x4096x128 .f32) (x1 : Vec F S128x64 .f32) (x2 : Vec F S3x128x64 .f32) :
    List (View.Piece (Elt F) S1x4096x128 .f32) :=
  [tilePiece x0 x1 x2 3584 inb_S1x4096x128_S1x512x128_0_3584_0 inb_S4096x128_S512x128_3584_0,
   tilePiece x0 x1 x2 3072 inb_S1x4096x128_S1x512x128_0_3072_0 inb_S4096x128_S512x128_3072_0,
   tilePiece x0 x1 x2 2560 inb_S1x4096x128_S1x512x128_0_2560_0 inb_S4096x128_S512x128_2560_0,
   tilePiece x0 x1 x2 2048 inb_S1x4096x128_S1x512x128_0_2048_0 inb_S4096x128_S512x128_2048_0,
   tilePiece x0 x1 x2 1536 inb_S1x4096x128_S1x512x128_0_1536_0 inb_S4096x128_S512x128_1536_0,
   tilePiece x0 x1 x2 1024 inb_S1x4096x128_S1x512x128_0_1024_0 inb_S4096x128_S512x128_1024_0,
   tilePiece x0 x1 x2 512 inb_S1x4096x128_S1x512x128_0_512_0 inb_S4096x128_S512x128_512_0,
   tilePiece x0 x1 x2 0 inb_S1x4096x128_S1x512x128_0_0_0 inb_S4096x128_S512x128_0_0]

/-- The pieces the body's run leaves in the output's buffer ARE the eight tiles: every read-back of a scratch table is
    the stored table through the load's rectangle, and every load of an input buffer is its contents. -/
theorem run_pieces (c : Dev nD) (i : grid0.Coords) (arg1 : Memref sig .tc .vmem S1x4096x128 .f32) (harg1 : arg1.IsWhole) (arg2 : Memref sig .tc .vmem S128x64 .f32) (harg2 : arg2.IsWhole) (arg3 : Memref sig .tc .vmem S3x128x64 .f32) (harg3 : arg3.IsWhole) (arg4 : Memref sig .tc .vmem S1x4096x128 .f32) (harg4 : arg4.IsWhole) (arg5 : Memref sig .tc .vmem S4096x128 .bf16) (harg5 : arg5.IsWhole) (arg6 : Memref sig .tc .vmem S128x4096 .bf16) (harg6 : arg6.IsWhole)
    (x0 : Vec F S1x4096x128 .f32) (x1 : Vec F S128x64 .f32) (x2 : Vec F S3x128x64 .f32) :
    (kernelRun0_A c i arg1 harg1 arg2 harg2 arg3 harg3 arg4 harg4 arg5 harg5 arg6 harg6 x0 x1 x2).1 = tiles x0 x1 x2 := by
  unfold kernelRun0_A
  dsimp only
  sl_unfold_words
  simp only [View.readAt_eq_ld, harg1.read_unread, harg2.read_unread, harg3.read_unread,
    View.ld_unit_zero (S := S1x4096x128) hz3, View.ld_unit_zero (S := S128x64) hz2, View.ld_unit_zero (S := S3x128x64) hz3,
    View.readCov_whole_store (S := S4096x128) _ hz2, View.readCov_whole_store (S := S128x4096) _ hz2,
    View.ld_unit_zero (S := S4096x128) hz2, View.ld_unit_zero (S := S128x4096) hz2,
    tile_at_3072, tile_at_2560, tile_at_2048, tile_at_1536, tile_at_1024, tile_at_512, tile_at_0]
  unfold tiles tilePiece
  rfl

/-- So the output's staging buffer after the body holds the canonical contents of the eight tiles. -/
theorem out_canon (c : Dev nD) (i : grid0.Coords) (arg1 : Memref sig .tc .vmem S1x4096x128 .f32) (harg1 : arg1.IsWhole) (arg2 : Memref sig .tc .vmem S128x64 .f32) (harg2 : arg2.IsWhole) (arg3 : Memref sig .tc .vmem S3x128x64 .f32) (harg3 : arg3.IsWhole) (arg4 : Memref sig .tc .vmem S1x4096x128 .f32) (harg4 : arg4.IsWhole) (arg5 : Memref sig .tc .vmem S4096x128 .bf16) (harg5 : arg5.IsWhole) (arg6 : Memref sig .tc .vmem S128x4096 .bf16) (harg6 : arg6.IsWhole)
    (x0 : Vec F S1x4096x128 .f32) (x1 : Vec F S128x64 .f32) (x2 : Vec F S3x128x64 .f32) :
    out0_A_3 c i arg1 harg1 arg2 harg2 arg3 harg3 arg4 harg4 arg5 harg5 arg6 harg6 x0 x1 x2 = View.canon (tiles x0 x1 x2) := by
  unfold out0_A_3
  rw [View.read_writes_eq_canon _ _ _ (cover0_A_3 c i arg1 harg1 arg2 harg2 arg3 harg3 arg4 harg4 arg5 harg5 arg6 harg6 x0 x1 x2), run_pieces]

/-- The eight tiles cover the block. -/
theorem tiles_cover (c : Dev nD) (i : grid0.Coords) (arg1 : Memref sig .tc .vmem S1x4096x128 .f32) (harg1 : arg1.IsWhole) (arg2 : Memref sig .tc .vmem S128x64 .f32) (harg2 : arg2.IsWhole) (arg3 : Memref sig .tc .vmem S3x128x64 .f32) (harg3 : arg3.IsWhole) (arg4 : Memref sig .tc .vmem S1x4096x128 .f32) (harg4 : arg4.IsWhole) (arg5 : Memref sig .tc .vmem S4096x128 .bf16) (harg5 : arg5.IsWhole) (arg6 : Memref sig .tc .vmem S128x4096 .bf16) (harg6 : arg6.IsWhole)
    (x0 : Vec F S1x4096x128 .f32) (x1 : Vec F S128x64 .f32) (x2 : Vec F S3x128x64 .f32) (y : S1x4096x128.Idx) :
    ∃ pc ∈ tiles x0 x1 x2, y ∈ pc.1.set := by
  have h := cover0_A_3 c i arg1 harg1 arg2 harg2 arg3 harg3 arg4 harg4 arg5 harg5 arg6 harg6 x0 x1 x2 y
  rwa [run_pieces] at h

end Cert.KernelIdeal.Body

end
-- ==== Proof.Attention.lean ====
/-
  Attention over one sequence, as functions of coordinates on the extended reals. A sequence is a table
  `x : Fin T → Fin D → EReal` of `T` rows. Keys are a three-tap convolution along the rows (the row before, the row itself
  and the row after, zeros beyond either end, one weight matrix per tap); queries are the rows through a weight matrix; the
  score of query row `t` against key row `s` is their inner product over the `H` features, scaled; each row of scores is turned
  into weights by the exponential of its distance to the row's top, normalised by the row's sum; and the result is the
  weighted sum of the rows of `x` themselves.
  The scores are written twice: with the query weights folded into the key table first (one contraction over `D` per
  score), and with the queries projected first (one contraction over `H` per score). The two are one number when every
  entry is real (`Proof/ScoreLaw.lean`); everything after the scores is the same expression of them (`attend`).
-/
import Idealize.ShloMosaic.PureOps.Ideal
import Mathlib.Tactic

noncomputable section

namespace Attn

open Idealize.ShloMosaic

variable {P T D H : ℕ}

/-- Row `s - 1` of the table, and a row of zeros in front of the first row. -/
def rowBefore (x : Fin T → Fin D → EReal) (s : Fin T) (e : Fin D) : EReal :=
  if h : 0 < s.val then x ⟨s.val - 1, by have := s.isLt; omega⟩ e else 0

/-- Row `s + 1` of the table, and a row of zeros behind the last row. -/
def rowAfter (x : Fin T → Fin D → EReal) (s : Fin T) (e : Fin D) : EReal :=
  if h : s.val + 1 < T then x ⟨s.val + 1, h⟩ e else 0

/-- The key table: at row `s` and feature `h`, tap 0 on the row before, tap 1 on the row, tap 2 on the row after. -/
def conv3 (x : Fin T → Fin D → EReal) (w : Fin 3 → Fin D → Fin H → EReal) (s : Fin T) (h : Fin H) : EReal :=
  (∑ e, rowBefore x s e * w 0 e h) + (∑ e, x s e * w 1 e h) + (∑ e, rowAfter x s e * w 2 e h)

/-- The key table seen through the query weights: entry `(e, s)` is the inner product over the features of row `e` of the
    query weights with key row `s`. -/
def foldedKeys (x : Fin T → Fin D → EReal) (wf : Fin D → Fin H → EReal) (w : Fin 3 → Fin D → Fin H → EReal)
    (e : Fin D) (s : Fin T) : EReal :=
  ∑ h, wf e h * conv3 x w s h

/-- Scores with the query weights folded into the keys: row `t` of the table against column `s` of `foldedKeys`, times `c`. -/
def scoreFolded (x : Fin T → Fin D → EReal) (wf : Fin D → Fin H → EReal) (w : Fin 3 → Fin D → Fin H → EReal) (c : EReal)
    (t s : Fin T) : EReal :=
  (∑ e, x t e * foldedKeys x wf w e s) * c

/-- Scores with the queries projected first: the projected row `t` against key row `s`, divided by `r`. -/
def scoreProjected (x : Fin T → Fin D → EReal) (wf : Fin D → Fin H → EReal) (w : Fin 3 → Fin D → Fin H → EReal) (r : EReal)
    (t s : Fin T) : EReal :=
  Ideal.div (∑ h, (∑ e, x t e * wf e h) * conv3 x w s h) r

/-- The top of a row of scores: the maximum of its entries and `b`. -/
def rowTop (S : Fin P → Fin T → EReal) (b : EReal) (p : Fin P) : EReal :=
  Finset.univ.fold max b (S p)

/-- The weights of a row of scores: the exponential of each entry's distance below the row's top, over the row's sum of those. -/
def weight (S : Fin P → Fin T → EReal) (b : EReal) (p : Fin P) (s : Fin T) : EReal :=
  Ideal.div (Ideal.exp (S p s - rowTop S b p)) (∑ s', Ideal.exp (S p s' - rowTop S b p))

/-- The rows of `v` mixed by the weights of row `p` of the scores. -/
def attend (S : Fin P → Fin T → EReal) (b : EReal) (v : Fin T → Fin D → EReal) (p : Fin P) (d : Fin D) : EReal :=
  ∑ s, weight S b p s * v s d

/-- `attend` at a row depends on the scores through that row alone: two score tables, of any heights, that share a row give
    the same mixture there. -/
theorem attend_row {P' : ℕ} (S : Fin P → Fin T → EReal) (S' : Fin P' → Fin T → EReal) (b : EReal) (v : Fin T → Fin D → EReal)
    (p : Fin P) (p' : Fin P') (h : S p = S' p') (d : Fin D) : attend S b v p d = attend S' b v p' d := by
  unfold attend weight rowTop
  rw [h]

end Attn

end
-- ==== Proof.BodyRead.lean ====
/-
  The kernel's stored values read at an index, at the extended reals. Each of the three values below is the kernel's own
  arithmetic with every layout operation pushed down to coordinates: the input block as a table of rows, the key table
  seen through the query weights, and one tile of query rows attended over all the keys.
-/
import proofs.«122185_j28776280883833_2_alg».proof.Proof.Gen.KernelIdeal.Skeleton
import proofs.«122185_j28776280883833_2_alg».proof.Proof.Attention
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Cert.KernelIdeal Cert.KernelIdeal.Gen Idealize.ShloMosaic Idealize.ShloMosaic.ValueIdx

/-! ## A matrix product into the zero accumulator, at an index -/

/-- Rows times columns: entry `(i, j)` of `x · y` is the sum over the shared axis of `x (i, e) * y (e, j)`. -/
theorem matmul_plain_apply {m k n : ℕ} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0])
    (h4 : D.rhsNonContracting = [1]) (h5 : D.lhsBatch = []) (h6 : D.rhsBatch = [])
    (x : FVec Ideal ⟨2, ![m, k]⟩ φ₁) (y : FVec Ideal ⟨2, ![k, n]⟩ φ₂) (i : Fin m) (j : Fin n) :
    matmul D none x y (constant (F := Ideal) ⟨2, ![m, n]⟩ .f32 0x00000000#32) (ix2 i j)
      = ∑ e : Fin k, x (ix2 i e) * y (ix2 e j) := by
  have hr : D.contr.rank = 1 := by rw [D.rank_contr, h1]; rfl
  have hs : D.contr.size ⟨0, by omega⟩ = k := by
    rw [D.size_contr 0 (by rw [h1]; exact Nat.one_pos)]
    simp only [h1]; rfl
  refine (Ideal.matmul_constant_zero_apply D none x y (ix2 i j)).trans ?_
  rw [← Equiv.sum_comp (contrEquiv1 D k hr hs).symm]
  refine Finset.sum_congr rfl fun e _ => ?_
  have he := contrEquiv1_symm_val D k hr hs e
  have el : D.lhsIdx (ix2 i j) ((contrEquiv1 D k hr hs).symm e) = ix2 i e := funext fun a => Fin.ext (by
    match a with
    | ⟨0, _⟩ =>
      unfold DotDims.lhsIdx
      rw [dif_neg (by rw [h5]; exact List.not_mem_nil), dif_pos (by rw [h3]; exact List.mem_singleton.mpr rfl)]
      simp only [Fin.val_cast]
      have key : ∀ (p : Nat) (hp : p < 2), p = 0 → ((ix2 i j : (⟨2, ![m, n]⟩ : Shape).Idx) ⟨p, hp⟩).val = i.val :=
        fun p hp h => by subst h; rfl
      exact key _ _ (by simp [h5, h3])
    | ⟨1, _⟩ => exact (D.lhsIdx_val_of_single h1 _ _).trans he)
  have er : D.rhsIdx (ix2 i j) ((contrEquiv1 D k hr hs).symm e) = ix2 e j := funext fun a => Fin.ext (by
    match a with
    | ⟨0, _⟩ => exact (D.rhsIdx_val_of_single h2 _ _).trans he
    | ⟨1, _⟩ =>
      unfold DotDims.rhsIdx
      rw [dif_neg (by rw [h6]; exact List.not_mem_nil), dif_pos (by rw [h4]; exact List.mem_singleton.mpr rfl)]
      simp only [Fin.val_cast]
      have key : ∀ (p : Nat) (hp : p < 2), p = 1 → ((ix2 i j : (⟨2, ![m, n]⟩ : Shape).Idx) ⟨p, hp⟩).val = j.val :=
        fun p hp h => by subst h; rfl
      exact key _ _ (by simp [h5, h3, h4]))
  rw [el, er]

/-- Rows times rows: entry `(i, j)` of `x · yᵀ` is the sum over both operands' last axis of `x (i, e) * y (j, e)`. -/
theorem matmul_transposedRhs_apply {m k n : ℕ} {φ₁ φ₂ : FTy} (D : DotDims ⟨2, ![m, k]⟩ ⟨2, ![n, k]⟩ ⟨2, ![m, n]⟩)
    (h1 : D.lhsContracting = [1]) (h2 : D.rhsContracting = [1]) (h3 : D.lhsNonContracting = [0])
    (h4 : D.rhsNonContracting = [0]) (h5 : D.lhsBatch = []) (h6 : D.rhsBatch = [])
    (x : FVec Ideal ⟨2, ![m, k]⟩ φ₁) (y : FVec Ideal ⟨2, ![n, k]⟩ φ₂) (i : Fin m) (j : Fin n) :
    matmul D none x y (constant (F := Ideal) ⟨2, ![m, n]⟩ .f32 0x00000000#32) (ix2 i j)
      = ∑ e : Fin k, x (ix2 i e) * y (ix2 j e) := by
  have hr : D.contr.rank = 1 := by rw [D.rank_contr, h1]; rfl
  have hs : D.contr.size ⟨0, by omega⟩ = k := by
    rw [D.size_contr 0 (by rw [h1]; exact Nat.one_pos)]
    simp only [h1]; rfl
  refine (Ideal.matmul_constant_zero_apply D none x y (ix2 i j)).trans ?_
  rw [← Equiv.sum_comp (contrEquiv1 D k hr hs).symm]
  refine Finset.sum_congr rfl fun e _ => ?_
  have he := contrEquiv1_symm_val D k hr hs e
  have el : D.lhsIdx (ix2 i j) ((contrEquiv1 D k hr hs).symm e) = ix2 i e := funext fun a => Fin.ext (by
    match a with
    | ⟨0, _⟩ =>
      unfold DotDims.lhsIdx
      rw [dif_neg (by rw [h5]; exact List.not_mem_nil), dif_pos (by rw [h3]; exact List.mem_singleton.mpr rfl)]
      simp only [Fin.val_cast]
      have key : ∀ (p : Nat) (hp : p < 2), p = 0 → ((ix2 i j : (⟨2, ![m, n]⟩ : Shape).Idx) ⟨p, hp⟩).val = i.val :=
        fun p hp h => by subst h; rfl
      exact key _ _ (by simp [h5, h3])
    | ⟨1, _⟩ => exact (D.lhsIdx_val_of_single h1 _ _).trans he)
  have er : D.rhsIdx (ix2 i j) ((contrEquiv1 D k hr hs).symm e) = ix2 j e := funext fun a => Fin.ext (by
    match a with
    | ⟨0, _⟩ =>
      unfold DotDims.rhsIdx
      rw [dif_neg (by rw [h6]; exact List.not_mem_nil), dif_pos (by rw [h4]; exact List.mem_singleton.mpr rfl)]
      simp only [Fin.val_cast]
      have key : ∀ (p : Nat) (hp : p < 2), p = 1 → ((ix2 i j : (⟨2, ![m, n]⟩ : Shape).Idx) ⟨p, hp⟩).val = j.val :=
        fun p hp h => by subst h; rfl
      exact key _ _ (by simp [h5, h3, h4])
    | ⟨1, _⟩ => exact (D.rhsIdx_val_of_single h2 _ _).trans he)
  rw [el, er]

/-! ## The keep-dimension column forms of a cast and a broadcast -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and a row's sum -/

/-- The maximum along the second axis of a `[512, 4096]` table, at row `p`: the fold of `max` over the row from the
    accumulator's value. -/
theorem rowMax_apply (x : FVec Ideal S512x4096 .f32) (h : S512x4096.Reduces [1] S512) (hφ : FKind.Formats .f32)
    (hacc : (0xFF800000#32 : BitVec 32) = FKind.maximumf.neutral .f32 hφ) (p : Fin 512) :
    multiReduction (F := Ideal) .maximumf [1] S512 x 0xFF800000#32 h hφ hacc (ix1 p)
      = Finset.univ.fold max (Ideal.ofBits .f32 0xFF800000#32) (fun s : Fin 4096 => x (ix2 p s)) := by
  refine (Ideal.multiReduction_maximumf_single x 0xFF800000#32 h hφ hacc (ix1 p)).trans ?_
  have e : (x ∘ h.lift (ix1 p)) = fun s : Fin 4096 => x (ix2 p s) := funext fun s => congrArg x (funext fun a => Fin.ext (by
    match a with
    | ⟨0, _⟩ => rfl
    | ⟨1, _⟩ => rfl))
  exact congrArg (Finset.univ.fold max (Ideal.ofBits .f32 0xFF800000#32)) e

/-- The sum along the second axis of a `[512, 4096]` table, at row `p`. -/
theorem rowSum_apply (x : FVec Ideal S512x4096 .f32) (h : S512x4096.Reduces [1] S512) (hφ : FKind.Formats .f32)
    (hacc : (0x00000000#32 : BitVec 32) = FKind.add.neutral .f32 hφ) (p : Fin 512) :
    multiReduction (F := Ideal) .add [1] S512 x 0x00000000#32 h hφ hacc (ix1 p) = ∑ s : Fin 4096, x (ix2 p s) := by
  refine (Ideal.multiReduction_add_single x 0x00000000#32 h hφ hacc (ix1 p)).trans ?_
  refine Finset.sum_congr rfl fun s _ => congrArg x (funext fun a => Fin.ext (by
    match a with
    | ⟨0, _⟩ => rfl
    | ⟨1, _⟩ => rfl))

/-! ## One tile of query rows -/

/-- The scores of a tile: the query rows times the folded key table, scaled. -/
def tileScores (q : FVec Ideal S512x128 .bf16) (a : FVec Ideal S128x4096 .bf16) : FVec Ideal S512x4096 .f32 :=
  mulf (matmul dot_S512x128_S128x4096_S512x4096_1_0_0_1_n_n none q a (constant (F := Ideal) S512x4096 .f32 0x00000000#32))
    (broadcast S512x4096 (Scalar.ofBits (F := Ideal) .f32 0x3E000000#32))

/-- Each row's top, spread back over the row. -/
def tileTop (x : FVec Ideal S512x4096 .f32) : FVec Ideal S512x4096 .f32 :=
  broadcastTo S512x4096
    (shapeCast S512x1 (multiReduction (F := Ideal) .maximumf [1] S512 x 0xFF800000#32 reduces_S512x4096_S512 (.inl rfl) rfl)
      shapeCasts_S512_S512x1) broadcasts_S512x1_S512x4096

/-- The exponential of each score's distance below its row's top. -/
def tileExp (x : FVec Ideal S512x4096 .f32) : FVec Ideal S512x4096 .f32 := exp (subf x (tileTop x))

/-- Each row's sum, spread back over the row. -/
def tileSum (y : FVec Ideal S512x4096 .f32) : FVec Ideal S512x4096 .f32 :=
  broadcastTo S512x4096
    (shapeCast S512x1 (multiReduction (F := Ideal) .add [1] S512 y 0x00000000#32 reduces_S512x4096_S512 (.inl rfl) rfl)
      shapeCasts_S512_S512x1) broadcasts_S512x1_S512x4096

/-- The weights of a table of scores. -/
def tileWeights (x : FVec Ideal S512x4096 .f32) : FVec Ideal S512x4096 .bf16 :=
  truncf .bf16 (divf (tileExp x) (tileSum (tileExp x))) bitsLt_bf16_f32

/-- The stored tile is the weights of the scores times the values, with a unit axis in front. -/
theorem k0_pay1_eq (q : FVec Ideal S512x128 .bf16) (a : FVec Ideal S128x4096 .bf16) (v : FVec Ideal S4096x128 .bf16) :
    k0_pay1 (F := Ideal) q a v
      = shapeCast S1x512x128
          (matmul dot_S512x4096_S4096x128_S512x128_1_0_0_1_n_n none (tileWeights (tileScores q a)) v
            (constant (F := Ideal) S512x128 .f32 0x00000000#32)) shapeCasts_S512x128_S1x512x128 := rfl

theorem tileScores_apply (q : FVec Ideal S512x128 .bf16) (a : FVec Ideal S128x4096 .bf16) (p : Fin 512) (s : Fin 4096) :
    tileScores q a (ix2 p s) = (∑ e : Fin 128, q (ix2 p e) * a (ix2 e s)) * Ideal.ofBits .f32 0x3E000000#32 := by
  unfold tileScores
  refine (mulf_apply _ _ _).trans ?_
  exact congrArg (· * Ideal.ofBits .f32 0x3E000000#32)
    (matmul_plain_apply dot_S512x128_S128x4096_S512x4096_1_0_0_1_n_n rfl rfl rfl rfl rfl rfl q a p s)

theorem tileTop_apply (x : FVec Ideal S512x4096 .f32) (p : Fin 512) (s : Fin 4096) :
    tileTop x (ix2 p s) = Finset.univ.fold max (Ideal.ofBits .f32 0xFF800000#32) (fun s' : Fin 4096 => x (ix2 p s')) := by
  unfold tileTop
  refine (broadcastTo_a1_ab_apply _ _ p s).trans ?_
  refine (shapeCast_a_a1_apply _ _ p 0).trans ?_
  exact rowMax_apply x _ _ _ p

theorem tileExp_apply (x : FVec Ideal S512x4096 .f32) (p : Fin 512) (s : Fin 4096) :
    tileExp x (ix2 p s)
      = Ideal.exp (x (ix2 p s) - Finset.univ.fold max (Ideal.ofBits .f32 0xFF800000#32) (fun s' : Fin 4096 => x (ix2 p s'))) := by
  show Ideal.exp (x (ix2 p s) - tileTop x (ix2 p s)) = _
  rw [tileTop_apply]

theorem tileSum_apply (y : FVec Ideal S512x4096 .f32) (p : Fin 512) (s : Fin 4096) :
    tileSum y (ix2 p s) = ∑ s' : Fin 4096, y (ix2 p s') := by
  unfold tileSum
  refine (broadcastTo_a1_ab_apply _ _ p s).trans ?_
  refine (shapeCast_a_a1_apply _ _ p 0).trans ?_
  exact rowSum_apply y _ _ _ p

theorem tileWeights_apply (x : FVec Ideal S512x4096 .f32) (p : Fin 512) (s : Fin 4096) :
    tileWeights x (ix2 p s) = Attn.weight (fun (p : Fin 512) (s : Fin 4096) => x (ix2 p s)) (Ideal.ofBits .f32 0xFF800000#32) p s := by
  show Ideal.div (tileExp x (ix2 p s)) (tileSum (tileExp x) (ix2 p s)) = _
  rw [tileSum_apply, tileExp_apply]
  unfold Attn.weight Attn.rowTop
  exact congrArg (Ideal.div _) (Finset.sum_congr rfl fun s' _ => tileExp_apply x p s')

/-- One tile of 512 query rows, at row `p` and feature `d`: the rows of `v` mixed by the weights of the scaled scores of row
    `p` against every column of the folded key table. -/
theorem tile_apply (q : Vec Ideal S512x128 .bf16) (a : Vec Ideal S128x4096 .bf16) (v : Vec Ideal S4096x128 .bf16)
    (p : Fin 512) (d : Fin 128) :
    k0_pay1 (F := Ideal) q a v (ix3 0 p d)
      = Attn.attend (fun (p : Fin 512) (s : Fin 4096) =>
            (∑ e : Fin 128, q (ix2 p e) * a (ix2 e s)) * Ideal.ofBits .f32 0x3E000000#32)
          (Ideal.ofBits .f32 0xFF800000#32) (fun s e => v (ix2 s e)) p d := by
  rw [k0_pay1_eq]
  refine (shapeCast_ab_1ab_apply _ _ 0 p d).trans ?_
  refine (matmul_plain_apply (φ₁ := .bf16) (φ₂ := .bf16) dot_S512x4096_S4096x128_S512x128_1_0_0_1_n_n rfl rfl rfl rfl rfl rfl
    (tileWeights (tileScores q a)) v p d).trans ?_
  have hS : (fun (p : Fin 512) (s : Fin 4096) => tileScores q a (ix2 p s))
      = fun (p : Fin 512) (s : Fin 4096) => (∑ e : Fin 128, q (ix2 p e) * a (ix2 e s)) * Ideal.ofBits .f32 0x3E000000#32 :=
    funext fun p => funext fun s => tileScores_apply q a p s
  rw [← hS]
  unfold Attn.attend
  exact Finset.sum_congr rfl fun s _ => congrArg (· * v (ix2 s d)) (tileWeights_apply (tileScores q a) p s)

/-! ## The input block as a table of rows -/

/-- The block with its unit axis dropped, narrowed: row `s`, feature `e` of the block. -/
theorem pay2_apply (x0 : Vec Ideal S1x4096x128 .f32) (s : Fin 4096) (e : Fin 128) :
    k0_pay2 (F := Ideal) x0 (ix2 s e) = x0 (ix3 0 s e) := by
  unfold k0_pay2
  exact shapeCast_1ab_ab_apply x0 _ s e

/-- The stored table of rows is the input block itself. -/
theorem rows_apply (x0 : Vec Ideal S1x4096x128 .f32) (s : Fin 4096) (e : Fin 128) :
    k0_pay3 (F := Ideal) x0 (ix2 s e) = x0 (ix3 0 s e) := by
  unfold k0_pay3
  refine (congrFun (shapeCast_self (k0_pay2 (F := Ideal) x0) _) (ix2 s e)).trans ?_
  exact pay2_apply x0 s e

/-! ## The key table seen through the query weights -/

/-- The narrow zero word is the number zero. -/
theorem ofBits_zero_bf16 : Scalar.ofBits (F := Ideal) .bf16 0x0000#16 = (0 : EReal) := by
  show Ideal.ofBits .bf16 0x0000#16 = 0
  simp [Ideal.ofBits, Ideal.ieee]

/-- The table moved one row down, a row of zeros on top. -/
def shiftDown (x : FVec Ideal S4096x128 .bf16) : FVec Ideal S4096x128 .bf16 :=
  concatenate S4096x128 0
    [⟨S1x128, broadcast S1x128 (Scalar.ofBits (F := Ideal) .bf16 0x0000#16)⟩,
     ⟨S4095x128, extractStridedSlice S4095x128 ![0, 0] x slices_S4096x128_o0_0_S4095x128⟩]
    concatenates_S1x128_S4095x128_S4096x128_d0

/-- The table moved one row up, a row of zeros at the bottom. -/
def shiftUp (x : FVec Ideal S4096x128 .bf16) : FVec Ideal S4096x128 .bf16 :=
  concatenate S4096x128 0
    [⟨S4095x128, extractStridedSlice S4095x128 ![1, 0] x slices_S4096x128_o1_0_S4095x128⟩,
     ⟨S1x128, broadcast S1x128 (Scalar.ofBits (F := Ideal) .bf16 0x0000#16)⟩]
    concatenates_S4095x128_S1x128_S4096x128_d0

theorem shiftDown_apply (x : FVec Ideal S4096x128 .bf16) (s : Fin 4096) (e : Fin 128) :
    shiftDown x (ix2 s e) = Attn.rowBefore (fun (s : Fin 4096) (e : Fin 128) => x (ix2 s e)) s e := by
  unfold shiftDown Attn.rowBefore
  by_cases h : 0 < s.val
  · rw [dif_pos h]
    have hlt : s.val - 1 < 4095 := by have := s.isLt; omega
    refine (concatenate_pair_apply_right (t := S4096x128) (s₁ := S1x128) (s₂ := S4095x128) (0 : Fin S4096x128.rank) _ _ _
      (ix2 s e) rfl rfl (ix2 (⟨s.val - 1, hlt⟩ : Fin 4095) e : S4095x128.Idx) (fun b hb => ?_) ?_).trans ?_
    · match b with
      | ⟨0, _⟩ => exact absurd rfl hb
      | ⟨1, _⟩ => rfl
    · show s.val - 1 + 1 = s.val
      omega
    · exact slice2_axis0_apply 0 x _ ⟨s.val - 1, hlt⟩ e ⟨s.val - 1, by have := s.isLt; omega⟩ (Nat.zero_add _).symm
  · rw [dif_neg h]
    have h0 : s.val = 0 := by omega
    refine (concatenate_pair_apply_left (t := S4096x128) (s₁ := S1x128) (s₂ := S4095x128) (0 : Fin S4096x128.rank) _ _ _
      (ix2 s e) rfl (ix2 (0 : Fin 1) e : S1x128.Idx) (fun b => ?_)).trans ?_
    · match b with
      | ⟨0, _⟩ => exact h0.symm
      | ⟨1, _⟩ => rfl
    · exact ofBits_zero_bf16

theorem shiftUp_apply (x : FVec Ideal S4096x128 .bf16) (s : Fin 4096) (e : Fin 128) :
    shiftUp x (ix2 s e) = Attn.rowAfter (fun (s : Fin 4096) (e : Fin 128) => x (ix2 s e)) s e := by
  unfold shiftUp Attn.rowAfter
  by_cases h : s.val + 1 < 4096
  · rw [dif_pos h]
    have hlt : s.val < 4095 := by omega
    refine (concatenate_pair_apply_left (t := S4096x128) (s₁ := S4095x128) (s₂ := S1x128) (0 : Fin S4096x128.rank) _ _ _
      (ix2 s e) rfl (ix2 (⟨s.val, hlt⟩ : Fin 4095) e : S4095x128.Idx) (fun b => ?_)).trans ?_
    · match b with
      | ⟨0, _⟩ => rfl
      | ⟨1, _⟩ => rfl
    · exact slice2_axis0_apply 1 x _ ⟨s.val, hlt⟩ e ⟨s.val + 1, h⟩ (Nat.add_comm _ _)
  · rw [dif_neg h]
    have h0 : s.val = 4095 := by have := s.isLt; omega
    refine (concatenate_pair_apply_right (t := S4096x128) (s₁ := S4095x128) (s₂ := S1x128) (0 : Fin S4096x128.rank) _ _ _
      (ix2 s e) rfl rfl (ix2 (0 : Fin 1) e : S1x128.Idx) (fun b hb => ?_) ?_).trans ?_
    · match b with
      | ⟨0, _⟩ => exact absurd rfl hb
      | ⟨1, _⟩ => rfl
    · show 0 + 4095 = s.val
      omega
    · exact ofBits_zero_bf16

/-- One tap's weight matrix cut out of the stack of three. -/
theorem tap_apply (w : FVec Ideal S3x128x64 .bf16) (k : Fin 3) (o : ℕ) (ho : k.val = o)
    (h : S3x128x64.Slices ![o, 0, 0] S1x128x64) (h' : S1x128x64.ShapeCasts S128x64) (e : Fin 128) (c : Fin 64) :
    shapeCast S128x64 (extractStridedSlice S1x128x64 ![o, 0, 0] w h) h' (ix2 e c) = w (ix3 k e c) := by
  refine (shapeCast_1ab_ab_apply _ h' e c).trans ?_
  refine extractStridedSlice_apply _ w h _ (ix3 k e c) fun ax => ?_
  match ax with
  | ⟨0, _⟩ => exact ho
  | ⟨1, _⟩ => exact (Nat.zero_add _).symm
  | ⟨2, _⟩ => exact (Nat.zero_add _).symm

/-- The three-tap key table of a table of rows. -/
def keyTable (x : FVec Ideal S4096x128 .bf16) (w : FVec Ideal S3x128x64 .bf16) : FVec Ideal S4096x64 .f32 :=
  addf
    (addf
      (matmul dot_S4096x128_S128x64_S4096x64_1_0_0_1_n_n none (shiftDown x)
        (shapeCast S128x64 (extractStridedSlice S1x128x64 ![0, 0, 0] w slices_S3x128x64_o0_0_0_S1x128x64) shapeCasts_S1x128x64_S128x64)
        (constant (F := Ideal) S4096x64 .f32 0x00000000#32))
      (matmul dot_S4096x128_S128x64_S4096x64_1_0_0_1_n_n none x
        (shapeCast S128x64 (extractStridedSlice S1x128x64 ![1, 0, 0] w slices_S3x128x64_o1_0_0_S1x128x64) shapeCasts_S1x128x64_S128x64)
        (constant (F := Ideal) S4096x64 .f32 0x00000000#32)))
    (matmul dot_S4096x128_S128x64_S4096x64_1_0_0_1_n_n none (shiftUp x)
      (shapeCast S128x64 (extractStridedSlice S1x128x64 ![2, 0, 0] w slices_S3x128x64_o2_0_0_S1x128x64) shapeCasts_S1x128x64_S128x64)
      (constant (F := Ideal) S4096x64 .f32 0x00000000#32))

/-- The stored table: the query weights against the key table, contracting both operands' last axis. -/
theorem k0_pay4_eq (x0 : Vec Ideal S1x4096x128 .f32) (x2 : Vec Ideal S3x128x64 .f32) (x1 : Vec Ideal S128x64 .f32) :
    k0_pay4 (F := Ideal) x0 x2 x1
      = shapeCast S128x4096
          (truncf .bf16
            (matmul dot_S128x64_S4096x64_S128x4096_1_1_0_0_n_n none (truncf (F := Ideal) .bf16 x1 bitsLt_bf16_f32)
              (truncf .bf16 (keyTable (k0_pay2 (F := Ideal) x0) (truncf (F := Ideal) .bf16 x2 bitsLt_bf16_f32)) bitsLt_bf16_f32)
              (constant (F := Ideal) S128x4096 .f32 0x00000000#32)) bitsLt_bf16_f32)
          shapeCasts_S128x4096_S128x4096 := rfl

theorem keyTable_apply (x : FVec Ideal S4096x128 .bf16) (w : FVec Ideal S3x128x64 .bf16) (s : Fin 4096) (c : Fin 64) :
    keyTable x w (ix2 s c)
      = Attn.conv3 (fun (s : Fin 4096) (e : Fin 128) => x (ix2 s e)) (fun (k : Fin 3) (e : Fin 128) (c : Fin 64) => w (ix3 k e c)) s c := by
  unfold keyTable Attn.conv3
  refine (addf_apply _ _ _).trans ?_
  refine congrArg₂ (· + ·) ((addf_apply _ _ _).trans (congrArg₂ (· + ·) ?_ ?_)) ?_
  · refine (matmul_plain_apply (φ₁ := .bf16) (φ₂ := .bf16) dot_S4096x128_S128x64_S4096x64_1_0_0_1_n_n rfl rfl rfl rfl rfl rfl _ _ s c).trans ?_
    exact Finset.sum_congr rfl fun e _ => congrArg₂ (· * ·) (shiftDown_apply x s e) (tap_apply w 0 0 rfl _ _ e c)
  · refine (matmul_plain_apply (φ₁ := .bf16) (φ₂ := .bf16) dot_S4096x128_S128x64_S4096x64_1_0_0_1_n_n rfl rfl rfl rfl rfl rfl _ _ s c).trans ?_
    exact Finset.sum_congr rfl fun e _ => congrArg (x (ix2 s e) * ·) (tap_apply w 1 1 rfl _ _ e c)
  · refine (matmul_plain_apply (φ₁ := .bf16) (φ₂ := .bf16) dot_S4096x128_S128x64_S4096x64_1_0_0_1_n_n rfl rfl rfl rfl rfl rfl _ _ s c).trans ?_
    exact Finset.sum_congr rfl fun e _ => congrArg₂ (· * ·) (shiftUp_apply x s e) (tap_apply w 2 2 rfl _ _ e c)

/-- The key table seen through the query weights, at feature `e` of the weights and key row `s`. -/
theorem keys_apply (x0 : Vec Ideal S1x4096x128 .f32) (x2 : Vec Ideal S3x128x64 .f32) (x1 : Vec Ideal S128x64 .f32)
    (e : Fin 128) (s : Fin 4096) :
    k0_pay4 (F := Ideal) x0 x2 x1 (ix2 e s)
      = Attn.foldedKeys (fun s e => x0 (ix3 0 s e)) (fun e h => x1 (ix2 e h)) (fun k e h => x2 (ix3 k e h)) e s := by
  rw [k0_pay4_eq]
  refine (congrFun (shapeCast_self _ _) (ix2 e s)).trans ?_
  refine (truncf_apply (φ := .f32) (ψ := .bf16) _ bitsLt_bf16_f32 (ix2 e s)).trans ?_
  refine (matmul_transposedRhs_apply (φ₁ := .bf16) (φ₂ := .bf16) dot_S128x64_S4096x64_S128x4096_1_1_0_0_n_n rfl rfl rfl rfl rfl rfl
    _ _ e s).trans ?_
  have hX : (fun (s : Fin 4096) (e : Fin 128) => k0_pay2 (F := Ideal) x0 (ix2 s e)) = fun s e => x0 (ix3 0 s e) :=
    funext fun s => funext fun e => pay2_apply x0 s e
  unfold Attn.foldedKeys
  rw [← hX]
  exact Finset.sum_congr rfl fun c _ => congrArg (x1 (ix2 e c) * ·)
    (keyTable_apply (k0_pay2 (F := Ideal) x0) (truncf (F := Ideal) .bf16 x2 bitsLt_bf16_f32) s c)

end Cert.KernelIdeal.Body

end
-- ==== Proof.ArraySpec.lean ====
/-
  Attention over a stack of eight sequences, as one function of the three argument arrays, index by index.

  The arrays are `X` [8, 4096, 128] (eight sequences of 4096 rows of 128 numbers), the query weights [128, 64] and the three
  key taps [3, 128, 64]. Entry `(b, t, d)` of the result is `Attn.attend` at row `t` and column `d` of sequence `b`: the
  sequences do not meet. It is written twice, once over each spelling of the scores (`Attn.scoreFolded` with the scale
  1/8 as the pattern 0x3E000000, `Attn.scoreProjected` with the divisor the square root of the pattern 0x42800000 of 64);
  the row tops start from the pattern 0xFF800000 of −∞. Also the same function of ONE sequence held as a [1, 4096, 128] block.
-/
import proofs.«122185_j28776280883833_2_alg».proof.Proof.Attention
import Idealize.ShloMosaic.Lib.ValueIdx

noncomputable section

namespace Attn

open Idealize.ShloMosaic Idealize.ShloMosaic.ValueIdx

/-- Sequence `b` of a stack of `n` sequences, by coordinates. -/
abbrev seqAt {n : ℕ} (X : (⟨3, ![n, 4096, 128]⟩ : Shape).Idx → EReal) (b : Fin n) : Fin 4096 → Fin 128 → EReal :=
  fun s e => X (ix3 b s e)

/-- The query weights by coordinates. -/
abbrev mat (W : (⟨2, ![128, 64]⟩ : Shape).Idx → EReal) : Fin 128 → Fin 64 → EReal := fun e h => W (ix2 e h)

/-- The three key taps by coordinates. -/
abbrev taps (W : (⟨3, ![3, 128, 64]⟩ : Shape).Idx → EReal) : Fin 3 → Fin 128 → Fin 64 → EReal := fun k e h => W (ix3 k e h)

/-- The scale 1/8, as its single-precision pattern. -/
abbrev scale : EReal := Ideal.ofBits .f32 0x3E000000#32
/-- The divisor: the square root of 64, as the pattern of 64 under the root. -/
abbrev divisor : EReal := Ideal.sqrt (Ideal.ofBits .f32 0x42800000#32)
/-- Where a row's top starts: −∞, as its single-precision pattern. -/
abbrev floor : EReal := Ideal.ofBits .f32 0xFF800000#32

/-- The result with the query weights folded into the keys, over a stack of `n` sequences. -/
def foldedArray {n : ℕ} (X : (⟨3, ![n, 4096, 128]⟩ : Shape).Idx → EReal) (Wf : (⟨2, ![128, 64]⟩ : Shape).Idx → EReal)
    (Wg : (⟨3, ![3, 128, 64]⟩ : Shape).Idx → EReal) : (⟨3, ![n, 4096, 128]⟩ : Shape).Idx → EReal :=
  fun i => attend (scoreFolded (seqAt X (i 0)) (mat Wf) (taps Wg) scale) floor (seqAt X (i 0)) (i 1) (i 2)

/-- The result with the queries projected first, over a stack of `n` sequences. -/
def projectedArray {n : ℕ} (X : (⟨3, ![n, 4096, 128]⟩ : Shape).Idx → EReal) (Wf : (⟨2, ![128, 64]⟩ : Shape).Idx → EReal)
    (Wg : (⟨3, ![3, 128, 64]⟩ : Shape).Idx → EReal) : (⟨3, ![n, 4096, 128]⟩ : Shape).Idx → EReal :=
  fun i => attend (scoreProjected (seqAt X (i 0)) (mat Wf) (taps Wg) divisor) floor (seqAt X (i 0)) (i 1) (i 2)

end Attn

end
-- ==== Proof.BlockValue.lean ====
/-
  The output block one run of the body leaves, at the ideal instance: attention over the ONE sequence the input block
  holds, index by index.

  The block is tiled by eight stored tiles of 512 rows (`TileList.lean`). The tile stored through rows `off … off + 511`
  computes, at its local row `p` and column `d`, the mixture `Attn.attend` of the rows of the sequence under the scores of
  query row `off + p` against every key row — its queries are rows `off + p` of the sequence, its keys the key table seen
  through the query weights (`Attn.foldedKeys`), so its scores are row `off + p` of `Attn.scoreFolded` — and a row of the
  mixture depends on the scores through that row alone (`Attn.attend_row`). So every tile is the restriction to its rows
  of ONE function of the block index, `Attn.foldedArray` over a stack of one sequence, and the canonical contents of
  pieces that all restrict one function is that function.
-/
import proofs.«122185_j28776280883833_2_alg».proof.Proof.TileList
import proofs.«122185_j28776280883833_2_alg».proof.Proof.BodyRead
import proofs.«122185_j28776280883833_2_alg».proof.Proof.ArraySpec

set_option maxRecDepth 16384

noncomputable section

open Idealize.ShloMosaic Idealize.ShloMosaic.TcCoe Idealize.SL.Sem Idealize.ShloMosaic.ValueIdx

namespace Cert.KernelIdeal.Body

open Cert.KernelIdeal Cert.KernelIdeal.Gen

/-- Rows `off … off + 511` of a [4096, 128] table, read at local coordinates: row `off + p`. -/
theorem band_apply (w : S4096x128.Idx → Elt Ideal EltTy.bf16) (off : ℕ) (hoff : off + 512 ≤ 4096)
    (inbQ : ∀ a, (![off, 0] : Fin 2 → Nat) a + S512x128.size a ≤ S4096x128.size a) (p : Fin 512) (e : Fin 128) :
    View.ld (Val := Elt Ideal) (S := S4096x128) (e' := EltTy.bf16) w (Rect.unit (s := S4096x128) ![off, 0] ![512, 128] inbQ) (ix2 p e)
      = w (ix2 ⟨off + p.val, by have := p.isLt; omega⟩ e) := by
  show w _ = w _
  congr 1
  funext a
  apply Fin.ext
  match a with
  | ⟨0, _⟩ => show off + 1 * p.val = off + p.val; omega
  | ⟨1, _⟩ => show 0 + 1 * e.val = e.val; omega

/-- ONE TILE IS THE BLOCK FUNCTION ON ITS ROWS: the tile stored through rows `off … off + 511`, at a local index, is
    `Attn.foldedArray` of the block at the index its rectangle names. -/
theorem tile_agrees (x0 : Vec Ideal S1x4096x128 .f32) (x1 : Vec Ideal S128x64 .f32) (x2 : Vec Ideal S3x128x64 .f32) (off : ℕ)
    (hoff : off + 512 ≤ 4096)
    (inbO : ∀ a, (![0, off, 0] : Fin 3 → Nat) a + S1x512x128.size a ≤ S1x4096x128.size a)
    (inbQ : ∀ a, (![off, 0] : Fin 2 → Nat) a + S512x128.size a ≤ S4096x128.size a)
    (x : (tilePiece (F := Ideal) x0 x1 x2 off inbO inbQ).1.shape.Idx) :
    (tilePiece (F := Ideal) x0 x1 x2 off inbO inbQ).2 x
      = Attn.foldedArray (n := 1) x0 x1 x2 ((tilePiece (F := Ideal) x0 x1 x2 off inbO inbQ).1.emb x) := by
  obtain ⟨z, p, d, rfl⟩ : ∃ (z : Fin 1) (p : Fin 512) (d : Fin 128), x = ix3 z p d := ⟨x 0, x 1, x 2, eq_ix3 x⟩
  obtain rfl : z = 0 := Subsingleton.elim _ _
  -- the index the tile's rectangle names: sequence 0, row off + p, column d
  have hi0 : ((tilePiece (F := Ideal) x0 x1 x2 off inbO inbQ).1.emb (ix3 0 p d)) 0 = (0 : Fin 1) :=
    Fin.ext (show 0 + 1 * ((0 : Fin 1) : ℕ) = ((0 : Fin 1) : ℕ) from rfl)
  have hi1 : ((tilePiece (F := Ideal) x0 x1 x2 off inbO inbQ).1.emb (ix3 0 p d)) 1
      = (⟨off + p.val, by have := p.isLt; omega⟩ : Fin 4096) := Fin.ext (by show off + 1 * p.val = off + p.val; omega)
  have hi2 : ((tilePiece (F := Ideal) x0 x1 x2 off inbO inbQ).1.emb (ix3 0 p d)) 2 = d :=
    Fin.ext (by show 0 + 1 * d.val = d.val; omega)
  unfold Attn.foldedArray
  rw [hi0, hi1, hi2]
  show k0_pay1 (F := Ideal) _ (k0_pay4 x0 x2 x1) (k0_pay3 x0) (ix3 0 p d) = _
  rw [tile_apply]
  have hv : (fun (s : Fin 4096) (e : Fin 128) => k0_pay3 (F := Ideal) x0 (ix2 s e)) = Attn.seqAt (n := 1) x0 0 :=
    funext fun s => funext fun e => rows_apply x0 s e
  rw [hv]
  refine Attn.attend_row _ _ _ _ p (⟨off + p.val, by have := p.isLt; omega⟩ : Fin 4096) ?_ d
  funext s
  unfold Attn.scoreFolded
  refine congrArg (· * _) (Finset.sum_congr rfl fun e _ => ?_)
  rw [keys_apply, band_apply _ off hoff inbQ p e, rows_apply]

/-- THE BLOCK: after the body, the output's staging buffer holds attention over the block's one sequence with the query
    weights folded into the keys. -/
theorem out_eq (c : Dev nD) (i : grid0.Coords) (arg1 : Memref sig .tc .vmem S1x4096x128 .f32) (harg1 : arg1.IsWhole) (arg2 : Memref sig .tc .vmem S128x64 .f32) (harg2 : arg2.IsWhole) (arg3 : Memref sig .tc .vmem S3x128x64 .f32) (harg3 : arg3.IsWhole) (arg4 : Memref sig .tc .vmem S1x4096x128 .f32) (harg4 : arg4.IsWhole) (arg5 : Memref sig .tc .vmem S4096x128 .bf16) (harg5 : arg5.IsWhole) (arg6 : Memref sig .tc .vmem S128x4096 .bf16) (harg6 : arg6.IsWhole)
    (x0 : Vec Ideal S1x4096x128 .f32) (x1 : Vec Ideal S128x64 .f32) (x2 : Vec Ideal S3x128x64 .f32) :
    out0_A_3 (F := Ideal) c i arg1 harg1 arg2 harg2 arg3 harg3 arg4 harg4 arg5 harg5 arg6 harg6 x0 x1 x2 = Attn.foldedArray (n := 1) x0 x1 x2 := by
  rw [out_canon]
  funext y
  refine View.canon_apply_of_pieces (Attn.foldedArray (n := 1) x0 x1 x2) (tiles x0 x1 x2) ?_ y
    (tiles_cover c i arg1 harg1 arg2 harg2 arg3 harg3 arg4 harg4 arg5 harg5 arg6 harg6 x0 x1 x2 y)
  intro pc hpc
  simp only [tiles, List.mem_cons, List.mem_nil_iff, or_false] at hpc
  rcases hpc with rfl | rfl | rfl | rfl | rfl | rfl | rfl | rfl
  · exact fun x => tile_agrees x0 x1 x2 3584 (by norm_num) _ _ x
  · exact fun x => tile_agrees x0 x1 x2 3072 (by norm_num) _ _ x
  · exact fun x => tile_agrees x0 x1 x2 2560 (by norm_num) _ _ x
  · exact fun x => tile_agrees x0 x1 x2 2048 (by norm_num) _ _ x
  · exact fun x => tile_agrees x0 x1 x2 1536 (by norm_num) _ _ x
  · exact fun x => tile_agrees x0 x1 x2 1024 (by norm_num) _ _ x
  · exact fun x => tile_agrees x0 x1 x2 512 (by norm_num) _ _ x
  · exact fun x => tile_agrees x0 x1 x2 0 (by norm_num) _ _ x

end Cert.KernelIdeal.Body

end
-- ==== Proof.ArrayValue.lean ====
/-
  The result array of the kernel from its blocks. The grid has eight points; point t stages sequence t of the stack (one
  [1, 4096, 128] block of the [8, 4096, 128] argument), the whole query weights and the whole key taps, and writes back one
  [1, 4096, 128] block of the result at the same place. One run of the body turns the staged sequence into attention over
  that sequence; attention at an index of the stack looks at the index's own sequence only, so block t of attention over the
  stack is attention over block t. The eight blocks tile the result array, which therefore holds attention over the stack.
-/
import proofs.«122185_j28776280883833_2_alg».proof.Proof.Gen.KernelIdeal.Value
import proofs.«122185_j28776280883833_2_alg».proof.Proof.BlockValue
import proofs.«122185_j28776280883833_2_alg».proof.Proof.ArraySpec

noncomputable section

namespace Attn

open Idealize.ShloMosaic Idealize.ShloMosaic.ValueIdx

/-- Attention at an index of a stack depends on the stack through the index's own sequence, and on the index through its row and
    column: two stacks, of any heights, that hold the same sequence at two indices of the same row and column, under the same
    weights, give the same number there. -/
theorem foldedArray_congr {n n' : ℕ} (X : (⟨3, ![n, 4096, 128]⟩ : Shape).Idx → EReal) (X' : (⟨3, ![n', 4096, 128]⟩ : Shape).Idx → EReal)
    (Wf Wf' : (⟨2, ![128, 64]⟩ : Shape).Idx → EReal) (Wg Wg' : (⟨3, ![3, 128, 64]⟩ : Shape).Idx → EReal)
    (i : (⟨3, ![n, 4096, 128]⟩ : Shape).Idx) (i' : (⟨3, ![n', 4096, 128]⟩ : Shape).Idx)
    (hs : seqAt X (i 0) = seqAt X' (i' 0)) (hm : mat Wf = mat Wf') (ht : taps Wg = taps Wg')
    (h1 : (i 1 : Fin 4096) = i' 1) (h2 : (i 2 : Fin 128) = i' 2) :
    foldedArray X Wf Wg i = foldedArray X' Wf' Wg' i' := by
  unfold foldedArray
  rw [hs, hm, ht, h1, h2]

end Attn

namespace Cert.KernelIdeal.ArrayValue

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps, decided over the eight points: the sequence window and the result window sit at block (t, 0, 0), the
    two weight windows at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- WHAT POINT t WRITES BACK is block t of attention over the stack. -/
theorem flushed_eq (c : Dev nD) (t : Fin cfg0.N) :
    (dats m 0 c).flushed 3 t = ((cfg0.win 3).blk t).view.read (Elt Ideal) (Attn.foldedArray (n := 8) (V m c main_arg0) (V m c main_arg1) (V m c main_arg2)) := by
  rw [Value.flushed3_A m c t, Body.out_eq]
  obtain ⟨a0, a1, a2, b0, b1, g0, g1, g2, o0, o1, o2⟩ := idx_facts t
  funext j
  show Attn.foldedArray (n := 1) (iblk m c 0 t) (iblk m c 1 t) (iblk m c 2 t) ((cfg0.win 3).xinj (grid0.coords t) j)
    = Attn.foldedArray (n := 8) (V m c main_arg0) (V m c main_arg1) (V m c main_arg2) (((cfg0.win 3).blk t).view.emb j)
  refine Attn.foldedArray_congr _ _ _ _ _ _ _ _ ?_ ?_ ?_ ?_ ?_
  · funext s e
    show iblk m c 0 t (ix3 ((cfg0.win 3).xinj (grid0.coords t) j 0) s e) = V m c main_arg0 (ix3 (((cfg0.win 3).blk t).view.emb j 0) s e)
    show V m c main_arg0 (((cfg0.win 0).blk t).view.emb (ix3 ((cfg0.win 3).xinj (grid0.coords t) j 0) s e)) = _
    refine congrArg _ (funext fun a => Fin.ext ?_)
    match a with
    | ⟨0, _⟩ => show win0_0.index t (0 : Fin 3) * 1 + 1 * (j 0).val = win0_3.index t (0 : Fin 3) * 1 + 1 * (j 0).val; omega
    | ⟨1, _⟩ => show win0_0.index t (1 : Fin 3) * 4096 + 1 * s.val = s.val; omega
    | ⟨2, _⟩ => show win0_0.index t (2 : Fin 3) * 128 + 1 * e.val = e.val; omega
  · funext e h
    show V m c main_arg1 (((cfg0.win 1).blk t).view.emb (ix2 e h)) = V m c main_arg1 (ix2 e h)
    refine congrArg _ (funext fun a => Fin.ext ?_)
    match a with
    | ⟨0, _⟩ => show win0_1.index t (0 : Fin 2) * 128 + 1 * e.val = e.val; omega
    | ⟨1, _⟩ => show win0_1.index t (1 : Fin 2) * 64 + 1 * h.val = h.val; omega
  · funext k e h
    show V m c main_arg2 (((cfg0.win 2).blk t).view.emb (ix3 k e h)) = V m c main_arg2 (ix3 k e h)
    refine congrArg _ (funext fun a => Fin.ext ?_)
    match a with
    | ⟨0, _⟩ => show win0_2.index t (0 : Fin 3) * 3 + 1 * k.val = k.val; omega
    | ⟨1, _⟩ => show win0_2.index t (1 : Fin 3) * 128 + 1 * e.val = e.val; omega
    | ⟨2, _⟩ => show win0_2.index t (2 : Fin 3) * 64 + 1 * h.val = h.val; omega
  · apply Fin.ext
    show (j 1).val = win0_3.index t (1 : Fin 3) * 4096 + 1 * (j 1).val; omega
  · apply Fin.ext
    show (j 2).val = win0_3.index t (2 : Fin 3) * 128 + 1 * (j 2).val; omega

/-- An index of the result array is in point t's block iff each coordinate is in the block's range on its axis. -/
theorem mem_blk (t : Fin cfg0.N) (i : S8x4096x128.Idx) :
    i ∈ ((cfg0.win 3).blk t).view.set ↔ ∀ a : Fin 3, win0_3.index t a * S1x4096x128.size a ≤ (i a).val ∧ (i a).val < win0_3.index t a * S1x4096x128.size a + S1x4096x128.size a := by
  show i ∈ ((View.whole main_v0).slice (win0_3.rect t)).set ↔ _
  rw [View.set_slice_whole, Rect.mem_set_unit]
  exact Iff.rfl

/-- The grid has as many points as the stack has sequences. -/
theorem points_eq : cfg0.N = 8 := N_0

/-- EVERY INDEX IS COVERED: index (b, s, e) of the result array lies in the block of point b. -/
theorem cover (i : S8x4096x128.Idx) : ∃ t : Fin cfg0.N, (cfg0.win 3).flush t = true ∧ i ∈ ((cfg0.win 3).blk t).view.set := by
  have hi0 : (i 0).val < 8 := (i 0).isLt
  have hi1 : (i 1).val < 4096 := (i 1).isLt
  have hi2 : (i 2).val < 128 := (i 2).isLt
  have hb : (i 0).val < cfg0.N := by rw [points_eq]; exact hi0
  refine ⟨⟨(i 0).val, hb⟩, flush0_3 _, ?_⟩
  rw [mem_blk]
  obtain ⟨-, -, -, -, -, -, -, -, o0, o1, o2⟩ := idx_facts ⟨(i 0).val, hb⟩
  have o0' : win0_3.index ⟨(i 0).val, hb⟩ (0 : Fin 3) = (i 0).val := o0
  intro a
  match a with
  | ⟨0, _⟩ => show win0_3.index ⟨(i 0).val, hb⟩ (0 : Fin 3) * 1 ≤ (i 0).val ∧ (i 0).val < win0_3.index ⟨(i 0).val, hb⟩ (0 : Fin 3) * 1 + 1; rw [o0']; omega
  | ⟨1, _⟩ => show win0_3.index ⟨(i 0).val, hb⟩ (1 : Fin 3) * 4096 ≤ (i 1).val ∧ (i 1).val < win0_3.index ⟨(i 0).val, hb⟩ (1 : Fin 3) * 4096 + 4096; rw [o1]; omega
  | ⟨2, _⟩ => show win0_3.index ⟨(i 0).val, hb⟩ (2 : Fin 3) * 128 ≤ (i 2).val ∧ (i 2).val < win0_3.index ⟨(i 0).val, hb⟩ (2 : Fin 3) * 128 + 128; rw [o2]; omega

/-- THE ARRAY after the run is attention over the stack of the three arguments as launched. -/
theorem final (c : Dev nD) : (dats m 0 c).arrAt 3 cfg0.N = Attn.foldedArray (n := 8) (m ((c : Thread nD τ).loc main_arg0)) (m ((c : Thread nD τ).loc main_arg1)) (m ((c : Thread nD τ).loc main_arg2)) :=
  (dats m 0 c).arrAt_eq_of_cover 3 (Attn.foldedArray (n := 8) (V m c main_arg0) (V m c main_arg1) (V m c main_arg2))
    (fun t _ => flushed_eq m c t) cover

/-- The run, read: the result array at attention over the stack, the three arguments unchanged. -/
theorem run : θ_run defs (onTc (τ := τ) (main (F := Ideal))) ⟨m, fun _ => 0, ρ⟩ fun r => ∀ c : Dev nD,
      r.2.mem ((c : Thread nD τ).loc main_v0) = Attn.foldedArray (n := 8) (m ((c : Thread nD τ).loc main_arg0)) (m ((c : Thread nD τ).loc main_arg1)) (m ((c : Thread nD τ).loc main_arg2))
      ∧ r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) :=
  (θ_run defs _ _).mono (fun r h c => ⟨(post3 m r h c).trans (final m c),
      kept_main_arg0 m r h c,
      kept_main_arg1 m r h c,
      kept_main_arg2 m r h c⟩)
    (run_main m ρ)

end Cert.KernelIdeal.ArrayValue

end
-- ==== Proof.RefRead.lean ====
/-
  The reference program read at an index. Its result at batch entry `b`, row `t` and column `d` is the attention
  mixture of `Attn.attend`: the scores are the projected queries against the three-tap keys, divided by the square
  root of 64; each row of scores is shifted by its top (the fold of `max` from minus infinity), exponentiated and
  divided by the row's sum; and the weights mix the rows of the batch entry itself.
  The steps follow the program's operations in order. Two of them are read here from the library's definitions: the
  padding of the sequence axis by one row of zeros at each end, and the maximum over a row of scores.
-/
import proofs.«122185_j28776280883833_2_alg».proof.Proof.Gen.ReferenceIdeal.Read
import proofs.«122185_j28776280883833_2_alg».proof.Proof.Attention
import Idealize.ShloMosaic.Lib.KernelVsHost
import Idealize.ShloMosaic.Lib.ValueIdx
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx

/-! ## The padded sequence -/

/-- The padding value: the integer zero converted to a float is the extended real zero. -/
theorem padValue (i : S_.Idx) : val_main_call0_v0 (F := Ideal) i = 0 := by
  rw [val_main_call0_v0_apply, val_main_c_apply]
  show (((0#32 : BitVec 32).toInt : ℝ) : EReal) = 0
  simp

/-- Row `s + 1` of the padded array is row `s` of the array. -/
theorem pad_inside (X : (⟨S8x4096x128, .f32⟩ : BufTy).Contents (Elt Ideal)) (j : S8x4098x128.Idx) (k : S8x4096x128.Idx)
    (h0 : (j 0).val = (k 0).val) (h1 : (j 1).val = (k 1).val + 1) (h2 : (j 2).val = (k 2).val) :
    val_main_v1 (F := Ideal) X j = X k := by
  unfold val_main_v1
  exact pad_apply_of_inside _ _ _ X _ pads_S8x4096x128_S8x4098x128_000_110_000 h_S_ j k (fun a => match a with
    | ⟨0, _⟩ => by show (j 0).val = 0 + (k 0).val * (0 + 1); omega
    | ⟨1, _⟩ => by show (j 1).val = 1 + (k 1).val * (0 + 1); omega
    | ⟨2, _⟩ => by show (j 2).val = 0 + (k 2).val * (0 + 1); omega)

/-- The first and the last row of the padded array are zero. -/
theorem pad_outside (X : (⟨S8x4096x128, .f32⟩ : BufTy).Contents (Elt Ideal)) (j : S8x4098x128.Idx)
    (h : (j 1).val = 0 ∨ (j 1).val = 4097) : val_main_v1 (F := Ideal) X j = 0 := by
  unfold val_main_v1
  rw [pad_apply_of_not_inside _ _ _ X _ pads_S8x4096x128_S8x4098x128_000_110_000 h_S_ j (1 : Fin 3) (by
    show ¬(1 ≤ (j 1).val ∧ ((j 1).val - 1) % (0 + 1) = 0 ∧ ((j 1).val - 1) / (0 + 1) < 4096)
    omega)]
  exact padValue _

/-! ## The three shifted copies of the sequence -/

variable (X : (⟨S8x4096x128, .f32⟩ : BufTy).Contents (Elt Ideal)) (Wf : (⟨S128x64, .f32⟩ : BufTy).Contents (Elt Ideal))
  (Wg : (⟨S3x128x64, .f32⟩ : BufTy).Contents (Elt Ideal))

/-- Rows `0 … 4095` of the padded array: the row before, zeros in front of the first row. -/
theorem v2_read (b : Fin 8) (s : Fin 4096) (e : Fin 128) :
    val_main_v2 (F := Ideal) X (ix3 b s e) = Attn.rowBefore (fun s e => X (ix3 b s e)) s e := by
  rw [val_main_v2_apply]
  unfold Attn.rowBefore
  by_cases h : 0 < s.val
  · rw [dif_pos h]
    exact pad_inside X _ (ix3 b ⟨s.val - 1, by have := s.isLt; omega⟩ e) rfl (by show s.val = s.val - 1 + 1; omega) rfl
  · rw [dif_neg h]
    exact pad_outside X _ (Or.inl (by show s.val = 0; omega))

/-- Rows `1 … 4096` of the padded array: the array itself. -/
theorem v6_read (b : Fin 8) (s : Fin 4096) (e : Fin 128) :
    val_main_v6 (F := Ideal) X (ix3 b s e) = X (ix3 b s e) := by
  rw [val_main_v6_apply]
  exact pad_inside X _ (ix3 b s e) rfl (by show 1 + s.val = s.val + 1; omega) rfl

/-- Rows `2 … 4097` of the padded array: the row after, zeros behind the last row. -/
theorem v11_read (b : Fin 8) (s : Fin 4096) (e : Fin 128) :
    val_main_v11 (F := Ideal) X (ix3 b s e) = Attn.rowAfter (fun s e => X (ix3 b s e)) s e := by
  rw [val_main_v11_apply]
  unfold Attn.rowAfter
  by_cases h : s.val + 1 < 4096
  · rw [dif_pos h]
    exact pad_inside X _ (ix3 b ⟨s.val + 1, h⟩ e) rfl (by show 2 + s.val = s.val + 1 + 1; omega) rfl
  · rw [dif_neg h]
    exact pad_outside X _ (Or.inr (by show 2 + s.val = 4097; have := s.isLt; omega))

/-! ## The three taps' weights -/

theorem v4_read (e : Fin 128) (h : Fin 64) : val_main_v4 (F := Ideal) Wg (ix2 e h) = Wg (ix3 (0 : Fin 3) e h) := by
  rw [val_main_v4_apply, val_main_v3_apply]
  refine congrArg Wg (funext fun a => Fin.ext ?_)
  have he := e.isLt
  have hh := h.isLt
  match a with
  | ⟨0, _⟩ => rfl
  | ⟨1, _⟩ => show (e.val * 64 + h.val) / 64 % 128 = e.val; omega
  | ⟨2, _⟩ => show (e.val * 64 + h.val) % 64 = h.val; omega

theorem v8_read (e : Fin 128) (h : Fin 64) : val_main_v8 (F := Ideal) Wg (ix2 e h) = Wg (ix3 (1 : Fin 3) e h) := by
  rw [val_main_v8_apply, val_main_v7_apply]
  refine congrArg Wg (funext fun a => Fin.ext ?_)
  have he := e.isLt
  have hh := h.isLt
  match a with
  | ⟨0, _⟩ => rfl
  | ⟨1, _⟩ => show (e.val * 64 + h.val) / 64 % 128 = e.val; omega
  | ⟨2, _⟩ => show (e.val * 64 + h.val) % 64 = h.val; omega

theorem v13_read (e : Fin 128) (h : Fin 64) : val_main_v13 (F := Ideal) Wg (ix2 e h) = Wg (ix3 (2 : Fin 3) e h) := by
  rw [val_main_v13_apply, val_main_v12_apply]
  refine congrArg Wg (funext fun a => Fin.ext ?_)
  have he := e.isLt
  have hh := h.isLt
  match a with
  | ⟨0, _⟩ => rfl
  | ⟨1, _⟩ => show (e.val * 64 + h.val) / 64 % 128 = e.val; omega
  | ⟨2, _⟩ => show (e.val * 64 + h.val) % 64 = h.val; omega

/-! ## Keys, queries and scores -/

/-- The first tap: the rows before through the first weight matrix. -/
theorem v5_read (b : Fin 8) (s : Fin 4096) (h : Fin 64) :
    val_main_v5 (F := Ideal) X Wg (ix3 b s h)
      = ∑ e : Fin 128, Attn.rowBefore (fun s e => X (ix3 b s e)) s e * Wg (ix3 (0 : Fin 3) e h) := by
  rw [val_main_v5_apply]
  refine Finset.sum_congr rfl fun e _ => ?_
  have hl : lidx_main_v5 (ix3 b s h) e = ix3 b s e := funext fun a => by
    match a with | ⟨0, _⟩ => rfl | ⟨1, _⟩ => rfl | ⟨2, _⟩ => rfl
  have hr : ridx_main_v5 (ix3 b s h) e = ix2 e h := funext fun a => by
    match a with | ⟨0, _⟩ => rfl | ⟨1, _⟩ => rfl
  rw [hl, hr, v2_read, v4_read]

/-- The second tap: the rows themselves through the second weight matrix. -/
theorem v9_read (b : Fin 8) (s : Fin 4096) (h : Fin 64) :
    val_main_v9 (F := Ideal) X Wg (ix3 b s h) = ∑ e : Fin 128, X (ix3 b s e) * Wg (ix3 (1 : Fin 3) e h) := by
  rw [val_main_v9_apply]
  refine Finset.sum_congr rfl fun e _ => ?_
  have hl : lidx_main_v9 (ix3 b s h) e = ix3 b s e := funext fun a => by
    match a with | ⟨0, _⟩ => rfl | ⟨1, _⟩ => rfl | ⟨2, _⟩ => rfl
  have hr : ridx_main_v9 (ix3 b s h) e = ix2 e h := funext fun a => by
    match a with | ⟨0, _⟩ => rfl | ⟨1, _⟩ => rfl
  rw [hl, hr, v6_read, v8_read]

/-- The third tap: the rows after through the third weight matrix. -/
theorem v14_read (b : Fin 8) (s : Fin 4096) (h : Fin 64) :
    val_main_v14 (F := Ideal) X Wg (ix3 b s h)
      = ∑ e : Fin 128, Attn.rowAfter (fun s e => X (ix3 b s e)) s e * Wg (ix3 (2 : Fin 3) e h) := by
  rw [val_main_v14_apply]
  refine Finset.sum_congr rfl fun e _ => ?_
  have hl : lidx_main_v14 (ix3 b s h) e = ix3 b s e := funext fun a => by
    match a with | ⟨0, _⟩ => rfl | ⟨1, _⟩ => rfl | ⟨2, _⟩ => rfl
  have hr : ridx_main_v14 (ix3 b s h) e = ix2 e h := funext fun a => by
    match a with | ⟨0, _⟩ => rfl | ⟨1, _⟩ => rfl
  rw [hl, hr, v11_read, v13_read]

/-- The keys: the three taps added. -/
theorem v15_read (b : Fin 8) (s : Fin 4096) (h : Fin 64) :
    val_main_v15 (F := Ideal) X Wg (ix3 b s h)
      = Attn.conv3 (fun s e => X (ix3 b s e)) (fun k e h => Wg (ix3 k e h)) s h := by
  rw [val_main_v15_apply, val_main_v10_apply, v5_read, v9_read, v14_read]
  rfl

/-- The queries: the rows through the query weights. -/
theorem v0_read (b : Fin 8) (t : Fin 4096) (h : Fin 64) :
    val_main_v0 (F := Ideal) X Wf (ix3 b t h) = ∑ e : Fin 128, X (ix3 b t e) * Wf (ix2 e h) := by
  rw [val_main_v0_apply]
  refine Finset.sum_congr rfl fun e _ => ?_
  have hl : lidx_main_v0 (ix3 b t h) e = ix3 b t e := funext fun a => by
    match a with | ⟨0, _⟩ => rfl | ⟨1, _⟩ => rfl | ⟨2, _⟩ => rfl
  have hr : ridx_main_v0 (ix3 b t h) e = ix2 e h := funext fun a => by
    match a with | ⟨0, _⟩ => rfl | ⟨1, _⟩ => rfl
  rw [hl, hr]

/-- The scores of one batch entry: the projected queries against the keys, over the square root of 64. -/
abbrev scores (b : Fin 8) : Fin 4096 → Fin 4096 → EReal :=
  Attn.scoreProjected (fun s e => X (ix3 b s e)) (fun e h => Wf (ix2 e h)) (fun k e h => Wg (ix3 k e h))
    (Ideal.sqrt (Ideal.ofBits .f32 0x42800000#32))

/-- The divisor, broadcast to every score: the square root of 64. -/
theorem v18_read (i : S8x4096x4096.Idx) :
    val_main_v18 (F := Ideal) i = Ideal.sqrt (Ideal.ofBits .f32 0x42800000#32) := by
  rw [val_main_v18_apply, val_main_v17_apply, val_main_cst_apply]
  rfl

theorem v19_read (b : Fin 8) (t s : Fin 4096) :
    val_main_v19 (F := Ideal) X Wf Wg (ix3 b t s) = scores X Wf Wg b t s := by
  rw [val_main_v19_apply, val_main_v16_apply, v18_read]
  unfold scores Attn.scoreProjected
  refine congrArg (fun z => Ideal.div z _) (Finset.sum_congr rfl fun h _ => ?_)
  have hl : lidx_main_v16 (ix3 b t s) h = ix3 b t h := funext fun a => by
    match a with | ⟨0, _⟩ => rfl | ⟨1, _⟩ => rfl | ⟨2, _⟩ => rfl
  have hr : ridx_main_v16 (ix3 b t s) h = ix3 b s h := funext fun a => by
    match a with | ⟨0, _⟩ => rfl | ⟨1, _⟩ => rfl | ⟨2, _⟩ => rfl
  rw [hl, hr, v0_read, v15_read]

/-! ## The top of a row of scores -/

/-- The maximum over a row of scores, from minus infinity: the fold of `max` over the row's entries. -/
theorem v20_read (b : Fin 8) (t : Fin 4096) :
    val_main_v20 (F := Ideal) X Wf Wg (ix2 b t)
      = (Finset.univ : Finset (Fin 4096)).fold max (Ideal.ofBits .f32 0xFF800000#32) (scores X Wf Wg b t) := by
  unfold val_main_v20
  have hR : S8x4096x4096.Reduces [2] S8x4096 := by decide
  rw [Host.reduce_eq_fold_single FloatOps.maximumf _ _ reducesTo_S8x4096x4096_S8x4096_d2 hR h_S_ (ix2 b t),
    val_main_cst_0_apply]
  have hf : (val_main_v19 (F := Ideal) X Wf Wg ∘ hR.lift (ix2 b t)) = scores X Wf Wg b t := funext fun (s : Fin 4096) => by
    show val_main_v19 (F := Ideal) X Wf Wg (hR.lift (ix2 b t) s) = _
    have hi : hR.lift (ix2 b t) s = ix3 b t s := funext fun a => Fin.ext (by
      match a with | ⟨0, _⟩ => rfl | ⟨1, _⟩ => rfl | ⟨2, _⟩ => rfl)
    rw [hi, v19_read]
  rw [hf]
  rfl

/-- A fold of `max` is at least its starting value. -/
theorem max_fold_self {ι : Type*} (u : Finset ι) (c : EReal) (f : ι → EReal) :
    max c (u.fold max c f) = u.fold max c f :=
  max_eq_right ((Finset.le_fold_max c).2 (Or.inl le_rfl))

/-- The top of row `t`: the maximum of minus infinity and the row's maximum is the row's maximum. -/
theorem v22_read (b : Fin 8) (t : Fin 4096) :
    val_main_v22 (F := Ideal) X Wf Wg (ix2 b t)
      = Attn.rowTop (scores X Wf Wg b) (Ideal.ofBits .f32 0xFF800000#32) t := by
  rw [val_main_v22_apply, val_main_v21_apply, val_main_cst_1_apply, v20_read]
  exact max_fold_self _ _ _

/-- The top of row `t`, broadcast along the row. -/
theorem v24_read (b : Fin 8) (t s : Fin 4096) :
    val_main_v24 (F := Ideal) X Wf Wg (ix3 b t s)
      = Attn.rowTop (scores X Wf Wg b) (Ideal.ofBits .f32 0xFF800000#32) t := by
  rw [val_main_v24_apply, val_main_v23_apply]
  have hi : idx_main_v23 (idx_main_v24 (ix3 b t s)) = ix2 b t := funext fun a => by
    match a with | ⟨0, _⟩ => rfl | ⟨1, _⟩ => rfl
  rw [hi, v22_read]

/-! ## Weights and the mixture -/

/-- The exponential of a score's distance below its row's top. -/
theorem v26_read (b : Fin 8) (t s : Fin 4096) :
    val_main_v26 (F := Ideal) X Wf Wg (ix3 b t s)
      = Ideal.exp (scores X Wf Wg b t s - Attn.rowTop (scores X Wf Wg b) (Ideal.ofBits .f32 0xFF800000#32) t) := by
  rw [val_main_v26_apply, val_main_v25_apply, v19_read, v24_read]
  rfl

/-- The sum of a row's exponentials: the starting value is zero. -/
theorem v27_read (b : Fin 8) (t : Fin 4096) :
    val_main_v27 (F := Ideal) X Wf Wg (ix2 b t)
      = ∑ s : Fin 4096, Ideal.exp (scores X Wf Wg b t s
          - Attn.rowTop (scores X Wf Wg b) (Ideal.ofBits .f32 0xFF800000#32) t) := by
  rw [val_main_v27_apply, val_main_cst_2_apply, Ideal.ofBits_def, Ideal.ofBits_zero_f32, zero_add]
  refine Finset.sum_congr rfl fun s _ => ?_
  have hi : idx_main_v27 (ix2 b t) s = ix3 b t s := funext fun a => by
    match a with | ⟨0, _⟩ => rfl | ⟨1, _⟩ => rfl | ⟨2, _⟩ => rfl
  rw [hi, v26_read]

/-- The weights: each exponential over its row's sum. -/
theorem v30_read (b : Fin 8) (t s : Fin 4096) :
    val_main_v30 (F := Ideal) X Wf Wg (ix3 b t s)
      = Attn.weight (scores X Wf Wg b) (Ideal.ofBits .f32 0xFF800000#32) t s := by
  rw [val_main_v30_apply, v26_read, val_main_v29_apply, val_main_v28_apply]
  have hi : idx_main_v28 (idx_main_v29 (ix3 b t s)) = ix2 b t := funext fun a => by
    match a with | ⟨0, _⟩ => rfl | ⟨1, _⟩ => rfl
  rw [hi, v27_read]
  rfl

/-- The reference's result at batch entry `b`, row `t`, column `d`: the rows of the entry mixed by the weights of
    row `t` of its scores. -/
theorem result_apply (X : (⟨S8x4096x128, .f32⟩ : BufTy).Contents (Elt Ideal))
    (Wf : (⟨S128x64, .f32⟩ : BufTy).Contents (Elt Ideal)) (Wg : (⟨S3x128x64, .f32⟩ : BufTy).Contents (Elt Ideal))
    (b : Fin 8) (t : Fin 4096) (d : Fin 128) :
    Cert.ReferenceIdeal.Read.val_main_v31 (F := Ideal) X Wf Wg (ix3 b t d)
      = Attn.attend (Attn.scoreProjected (fun s e => X (ix3 b s e)) (fun e h => Wf (ix2 e h))
            (fun k e h => Wg (ix3 k e h)) (Ideal.sqrt (Ideal.ofBits .f32 0x42800000#32)))
          (Ideal.ofBits .f32 0xFF800000#32) (fun s e => X (ix3 b s e)) t d := by
  rw [val_main_v31_apply]
  unfold Attn.attend
  refine Finset.sum_congr rfl fun s _ => ?_
  have hl : lidx_main_v31 (ix3 b t d) s = ix3 b t s := funext fun a => by
    match a with | ⟨0, _⟩ => rfl | ⟨1, _⟩ => rfl | ⟨2, _⟩ => rfl
  have hr : ridx_main_v31 (ix3 b t d) s = ix3 b s d := funext fun a => by
    match a with | ⟨0, _⟩ => rfl | ⟨1, _⟩ => rfl | ⟨2, _⟩ => rfl
  rw [hl, hr, v30_read]

end Cert.ReferenceIdeal.RefValue

end
-- ==== Proof.RefArray.lean ====
/-
  The reference's result as one array: the attention over the stack of eight sequences with the queries projected first,
  index by index; and the reference's run stated at that array: every execution ends with the result buffer holding it
  and the three arguments unchanged.
-/
import proofs.«122185_j28776280883833_2_alg».proof.Proof.RefRead
import proofs.«122185_j28776280883833_2_alg».proof.Proof.ArraySpec

noncomputable section

namespace Cert.ReferenceIdeal.RefValue

open Cert.ReferenceIdeal Cert.ReferenceIdeal.Gen Idealize.ShloMosaic Idealize.ShloMosaic.ValueIdx Idealize.ShloMosaic.TcCoe
  Idealize.SL.Sem Idealize.ShloMosaic.StableHlo

/-- The reference's result is the projected-queries attention over the stack of eight sequences. -/
theorem result_eq (X : (⟨S8x4096x128, .f32⟩ : BufTy).Contents (Elt Ideal))
    (Wf : (⟨S128x64, .f32⟩ : BufTy).Contents (Elt Ideal)) (Wg : (⟨S3x128x64, .f32⟩ : BufTy).Contents (Elt Ideal)) :
    Cert.ReferenceIdeal.Read.val_main_v31 (F := Ideal) X Wf Wg = Attn.projectedArray (n := 8) X Wf Wg := by
  funext i
  obtain ⟨b, t, d, rfl⟩ : ∃ b t d, i = ix3 b t d := ⟨i 0, i 1, i 2, eq_ix3 i⟩
  exact result_apply X Wf Wg b t d

variable (m : (ℓ : Loc nD τ sig) → Buf (Elt Ideal) ℓ) (ρ : Dev nD → PrngReg)

/-- On every device, from any memory with zero counters: every weakly fair execution of the reference terminates with
    its result buffer at the attention array of the three arguments' launch contents, and the arguments unchanged. -/
theorem run : θ_run Cert.ReferenceIdeal.defs (onTc (τ := τ) (main (F := Ideal))) ⟨m, fun _ => 0, ρ⟩ fun r => ∀ c : Dev nD,
      r.2.mem ((c.tc : Thread nD τ).loc main_v31)
          = Attn.projectedArray (n := 8) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run Cert.ReferenceIdeal.defs _ _).mono
    (fun _ h c => ⟨(h c).1.trans ((Cert.ReferenceIdeal.Read.val_main_v31_eq m c).trans (result_eq _ _ _)), (h c).2⟩)
    (Cert.ReferenceIdeal.Value.run (F := Ideal) m ρ)

end Cert.ReferenceIdeal.RefValue

end
-- ==== Proof.ScoreLaw.lean ====
/-
  The two spellings of the scores are one number when every entry is real. The folded spelling contracts row `t` of the
  table against the key table seen through the query weights and multiplies by the real 1/8; the projected spelling contracts
  the projected row against the key table and divides by the square root of 64. On real entries both are
  (∑_h (∑_e x t e · wf e h) · k s h) / 8, by distributing the outer factor over the inner sum and exchanging the two finite
  sums. The exchange is done over ℝ: on the extended reals multiplication does not distribute over a sum that mixes +∞ and -∞.
-/
import proofs.«122185_j28776280883833_2_alg».proof.Proof.Attention

noncomputable section

namespace Attn

open Idealize.ShloMosaic

variable {T D H : ℕ}

/-- The single-precision pattern `0x3E000000` denotes the real `1/8`. -/
theorem ofBits_eighth : Ideal.ofBits .f32 0x3E000000#32 = ((1 / 8 : ℝ) : EReal) := by
  simp [Ideal.ofBits, Ideal.ieee, -EReal.coe_mul]; norm_num

/-- The single-precision pattern `0x42800000` denotes the real `64`. -/
theorem ofBits_sixtyfour : Ideal.ofBits .f32 0x42800000#32 = ((64 : ℝ) : EReal) := by
  simp [Ideal.ofBits, Ideal.ieee, -EReal.coe_mul]; norm_num

/-- The square root of the real `64` is the real `8`. -/
theorem sqrt_sixtyfour : Ideal.sqrt ((64 : ℝ) : EReal) = ((8 : ℝ) : EReal) := by
  rw [Ideal.sqrt_coe, if_neg (by norm_num : ¬ ((64 : ℝ) < 0))]
  have h : Real.sqrt 64 = 8 := by
    rw [show (64 : ℝ) = 8 ^ 2 by norm_num]
    exact Real.sqrt_sq (by norm_num)
  rw [h]

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- `rowBefore` over the reals. -/
def rowBeforeR (x : Fin T → Fin D → ℝ) (s : Fin T) (e : Fin D) : ℝ :=
  if h : 0 < s.val then x ⟨s.val - 1, by have := s.isLt; omega⟩ e else 0

/-- `rowAfter` over the reals. -/
def rowAfterR (x : Fin T → Fin D → ℝ) (s : Fin T) (e : Fin D) : ℝ :=
  if h : s.val + 1 < T then x ⟨s.val + 1, h⟩ e else 0

/-- `conv3` over the reals. -/
def conv3R (x : Fin T → Fin D → ℝ) (w : Fin 3 → Fin D → Fin H → ℝ) (s : Fin T) (h : Fin H) : ℝ :=
  (∑ e, rowBeforeR x s e * w 0 e h) + (∑ e, x s e * w 1 e h) + (∑ e, rowAfterR x s e * w 2 e h)

theorem rowBefore_coe (x : Fin T → Fin D → ℝ) (s : Fin T) (e : Fin D) :
    rowBefore (fun a b => ((x a b : ℝ) : EReal)) s e = ((rowBeforeR x s e : ℝ) : EReal) := by
  unfold rowBefore rowBeforeR
  split_ifs
  · rfl
  · exact EReal.coe_zero.symm

theorem rowAfter_coe (x : Fin T → Fin D → ℝ) (s : Fin T) (e : Fin D) :
    rowAfter (fun a b => ((x a b : ℝ) : EReal)) s e = ((rowAfterR x s e : ℝ) : EReal) := by
  unfold rowAfter rowAfterR
  split_ifs
  · rfl
  · exact EReal.coe_zero.symm

theorem conv3_coe (x : Fin T → Fin D → ℝ) (w : Fin 3 → Fin D → Fin H → ℝ) (s : Fin T) (h : Fin H) :
    conv3 (fun a b => ((x a b : ℝ) : EReal)) (fun k a b => ((w k a b : ℝ) : EReal)) s h
      = ((conv3R x w s h : ℝ) : EReal) := by
  unfold conv3 conv3R
  simp only [rowBefore_coe, rowAfter_coe, ← EReal.coe_mul, ← coe_sum, ← EReal.coe_add]

/-- The exchange of the two finite sums, over the reals. -/
theorem exchangeR (a : Fin D → ℝ) (wf : Fin D → Fin H → ℝ) (k : Fin H → ℝ) :
    (∑ e, a e * ∑ h, wf e h * k h) = ∑ h, (∑ e, a e * wf e h) * k h := by
  simp only [Finset.mul_sum, Finset.sum_mul]
  rw [Finset.sum_comm]
  refine Finset.sum_congr rfl fun h _ => Finset.sum_congr rfl fun e _ => ?_
  ring

theorem scoreFolded_eq_scoreProjected (x : Fin T → Fin D → EReal) (wf : Fin D → Fin H → EReal)
    (w : Fin 3 → Fin D → Fin H → EReal)
    (hx : ∀ a b, ∃ r : ℝ, x a b = (r : EReal)) (hwf : ∀ a b, ∃ r : ℝ, wf a b = (r : EReal))
    (hw : ∀ k a b, ∃ r : ℝ, w k a b = (r : EReal)) (t s : Fin T) :
    scoreFolded x wf w (Idealize.ShloMosaic.Ideal.ofBits .f32 0x3E000000#32) t s
      = scoreProjected x wf w (Idealize.ShloMosaic.Ideal.sqrt (Idealize.ShloMosaic.Ideal.ofBits .f32 0x42800000#32)) t s := by
  choose xr hxr using hx
  choose wfr hwfr using hwf
  choose wr hwr using hw
  obtain rfl : x = fun a b => ((xr a b : ℝ) : EReal) := funext fun a => funext fun b => hxr a b
  obtain rfl : wf = fun a b => ((wfr a b : ℝ) : EReal) := funext fun a => funext fun b => hwfr a b
  obtain rfl : w = fun k a b => ((wr k a b : ℝ) : EReal) := funext fun k => funext fun a => funext fun b => hwr k a b
  unfold scoreFolded scoreProjected foldedKeys
  rw [ofBits_eighth, ofBits_sixtyfour, sqrt_sixtyfour, Ideal.div_coe (by norm_num : (8 : ℝ) ≠ 0)]
  simp only [conv3_coe, ← EReal.coe_mul, ← coe_sum]
  rw [exchangeR]

end Attn

end
-- ==== Proof.ArrayLaw.lean ====
/-
  Over a stack of sequences of real numbers the two spellings of the result are one array. At each index the two score
  tables of that index's sequence agree entry by entry (the score law, on real entries), and everything after the scores
  is the same expression of them.
-/
import proofs.«122185_j28776280883833_2_alg».proof.Proof.ArraySpec
import proofs.«122185_j28776280883833_2_alg».proof.Proof.ScoreLaw

noncomputable section

namespace Attn

open Idealize.ShloMosaic Idealize.ShloMosaic.ValueIdx

/-- On real entries the result with the query weights folded into the keys is the result with the queries projected first. -/
theorem foldedArray_eq_projectedArray {n : ℕ} (X : (⟨3, ![n, 4096, 128]⟩ : Shape).Idx → EReal)
    (Wf : (⟨2, ![128, 64]⟩ : Shape).Idx → EReal) (Wg : (⟨3, ![3, 128, 64]⟩ : Shape).Idx → EReal)
    (hX : ∀ i, ∃ r : ℝ, X i = (r : EReal)) (hWf : ∀ i, ∃ r : ℝ, Wf i = (r : EReal))
    (hWg : ∀ i, ∃ r : ℝ, Wg i = (r : EReal)) : foldedArray X Wf Wg = projectedArray X Wf Wg := by
  funext i
  unfold foldedArray projectedArray
  have hS : scoreFolded (seqAt X (i 0)) (mat Wf) (taps Wg) scale
      = scoreProjected (seqAt X (i 0)) (mat Wf) (taps Wg) divisor :=
    funext fun t => funext fun s =>
      scoreFolded_eq_scoreProjected _ _ _ (fun _ _ => hX _) (fun _ _ => hWf _) (fun _ _ _ => hWg _) t s
  rw [hS]

end Attn

end
-- ==== Proof.LibFiniteInputs.lean ====
/-
  A precondition "every element of the input has absolute value below +∞", read back: the input's elements are real
  numbers.

  On the extended reals the absolute value max x (-x) is below ⊤ exactly when x is neither ⊤ nor ⊥, that is when x is
  a real number. The precondition is printed as the conjunction, over all elements, of the one-bit comparisons
  |x| < (the pattern 0x7F800000, which denotes ⊤); when that conjunction is 1 every comparison is 1.
-/
import Idealize.ShloMosaic.Lib.ReduceAll
import Idealize.ShloMosaic.PureOps.Ideal.Laws

noncomputable section

namespace Cert.FiniteInputs

open Idealize.ShloMosaic

/-- The single-precision pattern 0x7F800000 denotes +∞. -/
theorem ofBits_f32_inf : Ideal.ofBits .f32 0x7F800000#32 = ⊤ := by
  simp [Ideal.ofBits, Ideal.ieee]

/-- The absolute value of an extended real is below ⊤ exactly when it is a real number. -/
theorem abs_lt_top_iff (x : EReal) : max x (-x) < ⊤ ↔ ∃ r : ℝ, x = (r : EReal) := by
  induction x using EReal.rec with
  | bot =>
    constructor
    · intro h
      rw [EReal.neg_bot, max_eq_right bot_le] at h
      exact absurd h (lt_irrefl _)
    · rintro ⟨r, hr⟩
      exact absurd hr.symm (EReal.coe_ne_bot r)
  | top =>
    constructor
    · intro h
      rw [max_eq_left (le_top)] at h
      exact absurd h (lt_irrefl _)
    · rintro ⟨r, hr⟩
      exact absurd hr.symm (EReal.coe_ne_top r)
  | coe r =>
    constructor
    · intro _
      exact ⟨r, rfl⟩
    · intro _
      rw [← EReal.coe_neg]
      exact max_lt (EReal.coe_lt_top r) (EReal.coe_lt_top (-r))

/-- One element of the precondition: the comparison |x| < T with T = ⊤, as a one-bit word equal to 1, says x is real. -/
theorem real_of_cmp_abs_lt {x T : EReal} (hT : T = ⊤) (h : Ideal.cmp .olt (max x (-x)) T = 1#1) :
    ∃ r : ℝ, x = (r : EReal) := by
  subst hT
  refine (abs_lt_top_iff x).mp ?_
  by_contra hn
  simp [Ideal.cmp, hn] at h

/-- THE PRECONDITION READ BACK: when the conjunction over all elements of the comparisons |v i| < top i is 1, top being
    ⊤ everywhere, every element of v is a real number. -/
theorem all_real_of_all_finite {s t u : Shape} {axes : List (Fin s.rank)} [Subsingleton t.Idx]
    (v top : FVec Ideal s .f32) (htop : ∀ i, top i = ⊤) (init : u.Idx → BitVec 1) (h : s.ReducesTo axes t)
    (hu : 0 < u.numel) (j : t.Idx)
    (e : Host.reduce IntOp.andi (cmpf .olt (Host.absf v) top) init h hu j = 1#1) (i : s.Idx) :
    ∃ r : ℝ, v i = (r : EReal) := by
  have hi : Ideal.cmp .olt (max (v i) (-(v i))) (top i) = 1#1 := Host.reduce_andi_all _ init h hu j e i
  exact real_of_cmp_abs_lt (htop i) hi

end Cert.FiniteInputs
-- ==== Proof.Finite.lean ====
/-
  The printed precondition says: every element of each of the three inputs has absolute value below +∞. It is the
  conjunction of three one-bit words, each the conjunction over all elements of one input of the comparisons |x| < +∞.
  When the whole is 1 each of the three is 1, and each of them says that every element of its input is a real number.
-/
import proofs.«122185_j28776280883833_2_alg».proof.Pre_finite_inputs
import proofs.«122185_j28776280883833_2_alg».proof.Proof.Gen.Pre_finite_inputs
import proofs.«122185_j28776280883833_2_alg».proof.Proof.LibFiniteInputs

noncomputable section

namespace Cert.FiniteInputs

open Idealize.ShloMosaic

/-- The shape of rank 0 has one index. -/
instance subsingleton_scalar_idx : Subsingleton Cert.Pre_finite_inputs.S_.Idx :=
  ⟨fun a b => funext fun d => d.elim0⟩

/-- The precondition read back: all three inputs are tables of real numbers. -/
theorem inputs_real [Cert.Pre_finite_inputs.Facts] (X : FVec Ideal Cert.Pre_finite_inputs.S8x4096x128 .f32)
    (Wf : FVec Ideal Cert.Pre_finite_inputs.S128x64 .f32) (Wg : FVec Ideal Cert.Pre_finite_inputs.S3x128x64 .f32)
    (h : Cert.Pre_finite_inputs.fn (F := Ideal) X Wf Wg = fun _ => 1#1) :
    (∀ i, ∃ r : ℝ, X i = (r : EReal)) ∧ (∀ i, ∃ r : ℝ, Wf i = (r : EReal)) ∧ (∀ i, ∃ r : ℝ, Wg i = (r : EReal)) := by
  have h0 := congrFun h (fun a => a.elim0)
  dsimp only [Cert.Pre_finite_inputs.fn] at h0
  obtain ⟨h12, h3⟩ := IntOp.andi_eq_one.1 h0
  obtain ⟨h1, h2⟩ := IntOp.andi_eq_one.1 h12
  refine ⟨fun i => ?_, fun i => ?_, fun i => ?_⟩
  · exact all_real_of_all_finite X _ (fun _ => ofBits_f32_inf) _ _ _ _ h1 i
  · exact all_real_of_all_finite Wf _ (fun _ => ofBits_f32_inf) _ _ _ _ h2 i
  · exact all_real_of_all_finite Wg _ (fun _ => ofBits_f32_inf) _ _ _ _ h3 i

end Cert.FiniteInputs

end
-- ==== Proof.lean ====
/-
  The certificate of a fused attention kernel against its plain reference, over the extended reals.

  Both programs take a stack `X` of eight sequences of 4096 rows of 128 numbers, query weights [128, 64] and three key taps
  [3, 128, 64]. Keys are a three-tap convolution of the rows; the score of query row `t` against key row `s` is the inner
  product over the 64 features of the projected query with the key, scaled by 1/√64; each row of scores is normalised by
  the exponential of its distance below the row's maximum over the row's sum; the result mixes the rows of `X` themselves.
  The kernel runs one grid point per sequence and, inside it, eight tiles of 512 query rows; it folds the query weights
  into the key table first, so each score is one contraction over the 128 columns, times the constant 1/8. The
  reference projects the queries, contracts over the 64 features, and divides by the square root of 64.

  At the ideal instance the two results are one function of the arguments when the arguments are real numbers, which is
  what the precondition says: the square root of 64 is 8 and dividing by 8 is multiplying by 1/8; the two orders of
  contraction agree by distributing and exchanging two finite sums of reals (`Attn.scoreFolded_eq_scoreProjected`); and
  everything after the scores is the same expression of them. The kernel's array is read off its generated frame run
  block by block (`Cert.KernelIdeal.ArrayValue.run`), the reference's off its generated run one operation at a time
  (`Cert.ReferenceIdeal.RefValue.run`). The three frames are the generated ones; the ideal pass rewrote nothing.
-/
import proofs.«122185_j28776280883833_2_alg».proof.Defs
import proofs.«122185_j28776280883833_2_alg».proof.Proof.Gen.Kernel
import proofs.«122185_j28776280883833_2_alg».proof.Proof.Gen.Kernel.Frame
import proofs.«122185_j28776280883833_2_alg».proof.Proof.Gen.KernelIdeal
import proofs.«122185_j28776280883833_2_alg».proof.Proof.Gen.KernelIdeal.Frame
import proofs.«122185_j28776280883833_2_alg».proof.Proof.Gen.ReferenceIdeal
import proofs.«122185_j28776280883833_2_alg».proof.Proof.Gen.Pre_finite_inputs
import proofs.«122185_j28776280883833_2_alg».proof.Proof.Legs
import proofs.«122185_j28776280883833_2_alg».proof.Proof.ArrayValue
import proofs.«122185_j28776280883833_2_alg».proof.Proof.RefArray
import proofs.«122185_j28776280883833_2_alg».proof.Proof.ArrayLaw
import proofs.«122185_j28776280883833_2_alg».proof.Proof.Finite
import Idealize.ShloMosaic.Adequacy
import Idealize.ShloMosaic.Init

noncomputable section

namespace Cert.Proof

open Idealize.ShloMosaic Idealize.SL.Sem

/-- The three frames: the kernel's two are generated whole; the reference's is its run with the result dropped. -/
theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RefValue.run m ρ)

/-- The two idealized programs end with one result: the kernel's array is attention with the query weights folded into
    the keys, the reference's attention with the queries projected first, and on real arguments these are one function. -/
theorem algebraic : Cert.algebraic_KernelIdeal_ReferenceIdeal := by
  intro m ρ m' ρ' hpre hagree
  refine ⟨_, Cert.KernelIdeal.ArrayValue.run m ρ, ?_⟩
  refine (θ_run Cert.ReferenceIdeal.defs _ _).mono (fun r h c => ⟨(h c).1.trans ?_, (h c).2⟩)
    (Cert.ReferenceIdeal.RefValue.run m' ρ')
  rw [(hagree c).1, (hagree c).2.1, (hagree c).2.2]
  obtain ⟨hX, hWf, hWg⟩ := Cert.FiniteInputs.inputs_real _ _ _ (hpre c)
  exact (Attn.foldedArray_eq_projectedArray _ _ _ hX hWf hWg).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
